-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x2048x2048 : Shape := ⟨3, ![1, 2048, 2048]⟩
abbrev S2048x50257 : Shape := ⟨2, ![2048, 50257]⟩
abbrev S50257 : Shape := ⟨1, ![50257]⟩
abbrev S_ : Shape := ⟨0, ![]⟩

class Facts : Prop where
  bcast_S_S1x2048x2048 : S_.BroadcastsInDim S1x2048x2048 (![] : Fin 0 → Fin S1x2048x2048.rank)
  reducesTo_S1x2048x2048_S_d0_1_2 : S1x2048x2048.ReducesTo [0, 1, 2] S_
  h_S_ : 0 < S_.numel
  bcast_S_S50257 : S_.BroadcastsInDim S50257 (![] : Fin 0 → Fin S50257.rank)
  reducesTo_S50257_S_d0 : S50257.ReducesTo [0] S_

variable [Facts]

def fn {F : FTy → Type} [FloatOps F] (main_arg0 : FVec F S1x2048x2048 .f32) (main_arg1 : IVec S2048x50257 32) (main_arg2 : FVec F S50257 .f32) (main_arg3 : FVec F S50257 .f32) : IVec S_ 1 :=
  let main_v0 : FVec F S1x2048x2048 .f32 := Host.absf main_arg0
  let main_cst : FVec F S_ .f32 := constant S_ .f32 0x7F800000#32
  let main_v1 : FVec F S1x2048x2048 .f32 := broadcastInDim S1x2048x2048 ![] bcast_S_S1x2048x2048 main_cst
  let main_v2 : IVec S1x2048x2048 1 := cmpf .olt main_v0 main_v1
  let main_c : IVec S_ 1 := constantI S_ 1 1#1
  let main_v3 : IVec S_ 1 := (fun x v => Host.reduce IntOp.andi x v reducesTo_S1x2048x2048_S_d0_1_2 h_S_) main_v2 main_c
  let main_v4 : FVec F S50257 .f32 := Host.absf main_arg2
  let main_cst_0 : FVec F S_ .f32 := constant S_ .f32 0x7F800000#32
  let main_v5 : FVec F S50257 .f32 := broadcastInDim S50257 ![] bcast_S_S50257 main_cst_0
  let main_v6 : IVec S50257 1 := cmpf .olt main_v4 main_v5
  let main_c_1 : IVec S_ 1 := constantI S_ 1 1#1
  let main_v7 : IVec S_ 1 := (fun x v => Host.reduce IntOp.andi x v reducesTo_S50257_S_d0 h_S_) main_v6 main_c_1
  let main_v8 : IVec S_ 1 := andi main_v3 main_v7
  let main_v9 : FVec F S50257 .f32 := Host.absf main_arg3
  let main_cst_2 : FVec F S_ .f32 := constant S_ .f32 0x7F800000#32
  let main_v10 : FVec F S50257 .f32 := broadcastInDim S50257 ![] bcast_S_S50257 main_cst_2
  let main_v11 : IVec S50257 1 := cmpf .olt main_v9 main_v10
  let main_c_3 : IVec S_ 1 := constantI S_ 1 1#1
  let main_v12 : IVec S_ 1 := (fun x v => Host.reduce IntOp.andi x v reducesTo_S50257_S_d0 h_S_) main_v11 main_c_3
  let main_v13 : IVec S_ 1 := andi main_v8 main_v12
  main_v13
-- ==== Kernel.lean ====
abbrev S1x2048x2048 : Shape := ⟨3, ![1, 2048, 2048]⟩
abbrev S2048x50257 : Shape := ⟨2, ![2048, 50257]⟩
abbrev S50257 : Shape := ⟨1, ![50257]⟩
abbrev S1x50257 : Shape := ⟨2, ![1, 50257]⟩
abbrev S1x2048x50257 : Shape := ⟨3, ![1, 2048, 50257]⟩
abbrev S1x256x2048 : Shape := ⟨3, ![1, 256, 2048]⟩
abbrev S2048x1280 : Shape := ⟨2, ![2048, 1280]⟩
abbrev S1x1280 : Shape := ⟨2, ![1, 1280]⟩
abbrev S1x256x1280 : Shape := ⟨3, ![1, 256, 1280]⟩
abbrev S256x1280 : Shape := ⟨2, ![256, 1280]⟩
abbrev S512x1280 : Shape := ⟨2, ![512, 1280]⟩
abbrev S1x256x512 : Shape := ⟨3, ![1, 256, 512]⟩
abbrev S256x512 : Shape := ⟨2, ![256, 512]⟩

abbrev nBuf : Space → Nat
  | .hbm => 8
  | .vmem => 12
  | .smem => 0
  | _ => 0

abbrev bufTy : (tb : Table) → Fin (tcTables nBuf tb) → BufTy
  | .hbm, ⟨0, _⟩ => ⟨S1x2048x2048, .f32⟩
  | .hbm, ⟨1, _⟩ => ⟨S2048x50257, .i32⟩
  | .hbm, ⟨2, _⟩ => ⟨S50257, .f32⟩
  | .hbm, ⟨3, _⟩ => ⟨S50257, .f32⟩
  | .hbm, ⟨4, _⟩ => ⟨S1x2048x2048, .bf16⟩
  | .hbm, ⟨5, _⟩ => ⟨S1x50257, .f32⟩
  | .hbm, ⟨6, _⟩ => ⟨S1x50257, .f32⟩
  | .hbm, ⟨7, _⟩ => ⟨S1x2048x50257, .f32⟩
  | .local _ .vmem, ⟨0, _⟩ => ⟨S1x256x2048, .bf16⟩
  | .local _ .vmem, ⟨1, _⟩ => ⟨S1x256x2048, .bf16⟩
  | .local _ .vmem, ⟨2, _⟩ => ⟨S2048x1280, .i32⟩
  | .local _ .vmem, ⟨3, _⟩ => ⟨S2048x1280, .i32⟩
  | .local _ .vmem, ⟨4, _⟩ => ⟨S1x1280, .f32⟩
  | .local _ .vmem, ⟨5, _⟩ => ⟨S1x1280, .f32⟩
  | .local _ .vmem, ⟨6, _⟩ => ⟨S1x1280, .f32⟩
  | .local _ .vmem, ⟨7, _⟩ => ⟨S1x1280, .f32⟩
  | .local _ .vmem, ⟨8, _⟩ => ⟨S1x256x1280, .f32⟩
  | .local _ .vmem, ⟨9, _⟩ => ⟨S1x256x1280, .f32⟩
  | .local _ .vmem, ⟨10, _⟩ => ⟨S256x1280, .f32⟩
  | .local _ .vmem, ⟨11, _⟩ => ⟨S2048x1280, .bf16⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![40, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_mult1 : BitVec 32 :=
  let c0_i32_47 : BitVec 32 := 0#32
  let c512_i32_48 : BitVec 32 := 512#32
  let v73 : BitVec 32 := Scalar.muli c0_i32_47 c512_i32_48
  v73
def k0_off1 (c0_i32_47 : BitVec 32) : Fin 2 → Nat :=
  let c512_i32_48 : BitVec 32 := 512#32
  let v73 : BitVec 32 := Scalar.muli c0_i32_47 c512_i32_48
  let v74 : BitVec 32 := v73
  let v75 : Index := Scalar.indexCast v74
  let c0_49 : Index := 0#32
  ![v75.toNat, 0]
def k0_mult2 : BitVec 32 :=
  let c1_i32_51 : BitVec 32 := 1#32
  let c512_i32_52 : BitVec 32 := 512#32
  let v83 : BitVec 32 := Scalar.muli c1_i32_51 c512_i32_52
  v83
def k0_mult3 : BitVec 32 :=
  let c2_i32_55 : BitVec 32 := 2#32
  let c512_i32_56 : BitVec 32 := 512#32
  let v93 : BitVec 32 := Scalar.muli c2_i32_55 c512_i32_56
  v93
def k0_mult4 : BitVec 32 :=
  let c3_i32_59 : BitVec 32 := 3#32
  let c512_i32_60 : BitVec 32 := 512#32
  let v103 : BitVec 32 := Scalar.muli c3_i32_59 c512_i32_60
  v103
def k0_mult5 : BitVec 32 :=
  let c0_i32_2 : BitVec 32 := 0#32
  let c512_i32 : BitVec 32 := 512#32
  let v7 : BitVec 32 := Scalar.muli c0_i32_2 c512_i32
  v7
def k0_off2 (c0_i32_2 : BitVec 32) : Fin 3 → Nat :=
  let c0_3 : Index := 0#32
  let c0_4 : Index := 0#32
  let c512_i32 : BitVec 32 := 512#32
  let v7 : BitVec 32 := Scalar.muli c0_i32_2 c512_i32
  let v8 : BitVec 32 := v7
  let v9 : Index := Scalar.indexCast v8
  ![0, 0, v9.toNat]
def k0_off3 (c0_i32_2 : BitVec 32) : Fin 2 → Nat :=
  let c512_i32 : BitVec 32 := 512#32
  let v7 : BitVec 32 := Scalar.muli c0_i32_2 c512_i32
  let v8 : BitVec 32 := v7
  let v12 : Index := Scalar.indexCast v8
  let c0_5 : Index := 0#32
  ![v12.toNat, 0]
def k0_mult6 : BitVec 32 :=
  let c1_i32 : BitVec 32 := 1#32
  let c512_i32_11 : BitVec 32 := 512#32
  let v20 : BitVec 32 := Scalar.muli c1_i32 c512_i32_11
  v20
def k0_mult7 : BitVec 32 :=
  let c2_i32 : BitVec 32 := 2#32
  let c512_i32_20 : BitVec 32 := 512#32
  let v33 : BitVec 32 := Scalar.muli c2_i32 c512_i32_20
  v33
def k0_mult8 : BitVec 32 :=
  let c3_i32 : BitVec 32 := 3#32
  let c512_i32_29 : BitVec 32 := 512#32
  let v46 : BitVec 32 := Scalar.muli c3_i32 c512_i32_29
  v46
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1280 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bitsLt_bf16_f32 : FTy.bits .bf16 < FTy.bits .f32
  shapeCasts_S50257_S1x50257 : S50257.ShapeCasts S1x50257
  h_S512x1280 : 0 < S512x1280.numel
  shapeCasts_S512x1280_S512x1280 : S512x1280.ShapeCasts S512x1280
  inb_S256x1280_S256x1280_0_0 : ∀ a, (![0, 0] : Fin 2 → Nat) a + S256x1280.size a ≤ S256x1280.size a
  h_S256x1280 : 0 < S256x1280.numel
  shapeCasts_S256x1280_S256x1280 : S256x1280.ShapeCasts S256x1280
  h_S1x256x512 : 0 < S1x256x512.numel
  shapeCasts_S1x256x512_S256x512 : S1x256x512.ShapeCasts S256x512
  inb_S1x1280_S1x1280_0_0 : ∀ a, (![0, 0] : Fin 2 → Nat) a + S1x1280.size a ≤ S1x1280.size a
  h_S1x1280 : 0 < S1x1280.numel
  shapeCasts_S1x1280_S1x1280 : S1x1280.ShapeCasts S1x1280
  broadcasts_S1x1280_S256x1280 : S1x1280.Broadcasts S256x1280
  inb_S1x256x1280_S1x256x1280_0_0_0 : ∀ a, (![0, 0, 0] : Fin 3 → Nat) a + S1x256x1280.size a ≤ S1x256x1280.size a
  h_S1x256x1280 : 0 < S1x256x1280.numel
  shapeCasts_S1x256x1280_S256x1280 : S1x256x1280.ShapeCasts S256x1280
  shapeCasts_S256x1280_S1x256x1280 : S256x1280.ShapeCasts S1x256x1280
  dot_S256x512_S512x1280_S256x1280_1_0_0_1_n_n_wf : DotDims.WF S256x512 S512x1280 S256x1280 [1] [0] [0] [1] [] []
  hrank0 : 0 < grid0.rank
  k0_mult1_dvd : ∀ i : grid0.Coords, ∀ (k0_h1 : k0_cond1 i = 1#1), 512 ∣ k0_mult1.toNat
  k0_off1_inb : ∀ i : grid0.Coords, ∀ (k0_h1 : k0_cond1 i = 1#1), ∀ (r : Fin 4), ∀ a, (k0_off1 (BitVec.ofNat 32 r.val)) a + S512x1280.size a ≤ S2048x1280.size a
  k0_off1_packedbf16 : ∀ i : grid0.Coords, ∀ (k0_h1 : k0_cond1 i = 1#1), ∀ (r : Fin 4), (Rect.unit (s := S2048x1280) (k0_off1 (BitVec.ofNat 32 r.val)) S512x1280.size (k0_off1_inb i k0_h1 r)).PackedRows (EltTy.packing .bf16)
  k0_mult2_dvd : ∀ i : grid0.Coords, ∀ (k0_h1 : k0_cond1 i = 1#1), 512 ∣ k0_mult2.toNat
  k0_mult3_dvd : ∀ i : grid0.Coords, ∀ (k0_h1 : k0_cond1 i = 1#1), 512 ∣ k0_mult3.toNat
  k0_mult4_dvd : ∀ i : grid0.Coords, ∀ (k0_h1 : k0_cond1 i = 1#1), 512 ∣ k0_mult4.toNat
  k0_mult5_dvd : 512 ∣ k0_mult5.toNat
  k0_off2_inb : ∀ (r : Fin 4), ∀ a, (k0_off2 (BitVec.ofNat 32 r.val)) a + S1x256x512.size a ≤ S1x256x2048.size a
  k0_off3_inb : ∀ (r : Fin 4), ∀ a, (k0_off3 (BitVec.ofNat 32 r.val)) a + S512x1280.size a ≤ S2048x1280.size a
  k0_mult6_dvd : 512 ∣ k0_mult6.toNat
  k0_mult7_dvd : 512 ∣ k0_mult7.toNat
  k0_mult8_dvd : 512 ∣ k0_mult8.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S1x2048x2048.size a
  hwx0_0 : ∀ i : grid0.Coords, EltTy.bits .bf16 = 32 ∨ (Rect.block (s := S1x2048x2048) S1x256x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S2048x1280.size a < S2048x50257.size a
  hwx0_1 : ∀ i : grid0.Coords, EltTy.bits .i32 = 32 ∨ (Rect.unit (s := S2048x50257) (fun a => cc0_transform_1 i a * S2048x1280.size a) (fun a => (Pipeline.Clip.of (cc0_transform_1 i a) (S2048x1280.size a) (S2048x50257.size a)).extent (S2048x1280.size a)) fun a => Pipeline.Clip.inb (Pipeline.Clip.ok_of (hstart0_1 i a))).WholeWords (EltTy.packing .i32)
  hwxs0_1 : ∀ i : grid0.Coords, EltTy.bits .i32 = 32 ∨ (Rect.unit (s := S2048x1280) (fun _ => 0) (fun a => (Pipeline.Clip.of (cc0_transform_1 i a) (S2048x1280.size a) (S2048x50257.size a)).extent (S2048x1280.size a)) fun a => (Nat.zero_add _).trans_le (Pipeline.Clip.extent_le (Pipeline.Clip.ok_of (hstart0_1 i a)))).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1x1280.size a < S1x50257.size a
  hwx0_2 : ∀ i : grid0.Coords, EltTy.bits .f32 = 32 ∨ (Rect.unit (s := S1x50257) (fun a => cc0_transform_2 i a * S1x1280.size a) (fun a => (Pipeline.Clip.of (cc0_transform_2 i a) (S1x1280.size a) (S1x50257.size a)).extent (S1x1280.size a)) fun a => Pipeline.Clip.inb (Pipeline.Clip.ok_of (hstart0_2 i a))).WholeWords (EltTy.packing .f32)
  hwxs0_2 : ∀ i : grid0.Coords, EltTy.bits .f32 = 32 ∨ (Rect.unit (s := S1x1280) (fun _ => 0) (fun a => (Pipeline.Clip.of (cc0_transform_2 i a) (S1x1280.size a) (S1x50257.size a)).extent (S1x1280.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1x1280.size a < S1x50257.size a
  hwx0_3 : ∀ i : grid0.Coords, EltTy.bits .f32 = 32 ∨ (Rect.unit (s := S1x50257) (fun a => cc0_transform_3 i a * S1x1280.size a) (fun a => (Pipeline.Clip.of (cc0_transform_3 i a) (S1x1280.size a) (S1x50257.size a)).extent (S1x1280.size a)) fun a => Pipeline.Clip.inb (Pipeline.Clip.ok_of (hstart0_3 i a))).WholeWords (EltTy.packing .f32)
  hwxs0_3 : ∀ i : grid0.Coords, EltTy.bits .f32 = 32 ∨ (Rect.unit (s := S1x1280) (fun _ => 0) (fun a => (Pipeline.Clip.of (cc0_transform_3 i a) (S1x1280.size a) (S1x50257.size a)).extent (S1x1280.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S1x256x1280.size a < S1x2048x50257.size a
  hwx0_4 : ∀ i : grid0.Coords, EltTy.bits .f32 = 32 ∨ (Rect.unit (s := S1x2048x50257) (fun a => cc0_transform_4 i a * S1x256x1280.size a) (fun a => (Pipeline.Clip.of (cc0_transform_4 i a) (S1x256x1280.size a) (S1x2048x50257.size a)).extent (S1x256x1280.size a)) fun a => Pipeline.Clip.inb (Pipeline.Clip.ok_of (hstart0_4 i a))).WholeWords (EltTy.packing .f32)
  hwxs0_4 : ∀ i : grid0.Coords, EltTy.bits .f32 = 32 ∨ (Rect.unit (s := S1x256x1280) (fun _ => 0) (fun a => (Pipeline.Clip.of (cc0_transform_4 i a) (S1x256x1280.size a) (S1x2048x50257.size a)).extent (S1x256x1280.size a)) fun a => (Nat.zero_add _).trans_le (Pipeline.Clip.extent_le (Pipeline.Clip.ok_of (hstart0_4 i a)))).WholeWords (EltTy.packing .f32)

variable [Facts₀]

def dot_S256x512_S512x1280_S256x1280_1_0_0_1_n_n : DotDims S256x512 S512x1280 S256x1280 where
  lhsContracting := [1]
  rhsContracting := [0]
  lhsNonContracting := [0]
  rhsNonContracting := [1]
  lhsBatch := []
  rhsBatch := []
  wf := dot_S256x512_S512x1280_S256x1280_1_0_0_1_n_n_wf

abbrev win0_0 : Pipeline.Window sig grid0 :=
  Pipeline.Window.ofSpec (Memref.whole main_v0) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S2048x1280.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v1) S1x1280.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v2) S1x1280.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_v3) S1x256x1280.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1x2048x2048 : Shape := ⟨3, ![1, 2048, 2048]⟩
abbrev S2048x50257 : Shape := ⟨2, ![2048, 50257]⟩
abbrev S50257 : Shape := ⟨1, ![50257]⟩
abbrev S1x2048x50257 : Shape := ⟨3, ![1, 2048, 50257]⟩
abbrev S1x1x50257 : Shape := ⟨3, ![1, 1, 50257]⟩

abbrev nBuf : Space → Nat
  | .hbm => 12
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S2048x50257, .i32⟩
  | .hbm, ⟨2, _⟩ => ⟨S50257, .f32⟩
  | .hbm, ⟨3, _⟩ => ⟨S50257, .f32⟩
  | .hbm, ⟨4, _⟩ => ⟨S2048x50257, .f32⟩
  | .hbm, ⟨5, _⟩ => ⟨S1x2048x50257, .f32⟩
  | .hbm, ⟨6, _⟩ => ⟨S1x1x50257, .f32⟩
  | .hbm, ⟨7, _⟩ => ⟨S1x2048x50257, .f32⟩
  | .hbm, ⟨8, _⟩ => ⟨S1x2048x50257, .f32⟩
  | .hbm, ⟨9, _⟩ => ⟨S1x1x50257, .f32⟩
  | .hbm, ⟨10, _⟩ => ⟨S1x2048x50257, .f32⟩
  | .hbm, ⟨11, _⟩ => ⟨S1x2048x50257, .f32⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bcast_S50257_S1x1x50257_2 : S50257.BroadcastsInDim S1x1x50257 (![2] : Fin 1 → Fin S1x1x50257.rank)
  bcast_S1x1x50257_S1x2048x50257_0_1_2 : S1x1x50257.BroadcastsInDim S1x2048x50257 (![0, 1, 2] : Fin 3 → Fin S1x2048x50257.rank)
  dot_S1x2048x2048_S2048x50257_S1x2048x50257_2_0_01_1_n_n_wf : DotDims.WF S1x2048x2048 S2048x50257 S1x2048x50257 [2] [0] [0, 1] [1] [] []

variable [Facts₀]

def dot_S1x2048x2048_S2048x50257_S1x2048x50257_2_0_01_1_n_n : DotDims S1x2048x2048 S2048x50257 S1x2048x50257 where
  lhsContracting := [2]
  rhsContracting := [0]
  lhsNonContracting := [0, 1]
  rhsNonContracting := [1]
  lhsBatch := []
  rhsBatch := []
  wf := dot_S1x2048x2048_S2048x50257_S1x2048x50257_2_0_01_1_n_n_wf

class Facts : Prop extends Facts₀ where

variable [Facts]
-- ==== Proof.BitsRunFirst.lean ====
/-
  The kernel body at a grid point whose inner coordinate is zero (the first row tile of a column tile).
  There the body first converts the whole integer weight block to floats, chunk of 512 rows by chunk, into the
  cache buffer; then clears the accumulator, adds the four partial products of the row tile's 512-column
  chunks with the cache's 512-row chunks, and stores accumulator * scale + bias into the result's buffer.
  Stated on whole memrefs: the four inputs at given contents and returned unchanged; the result's buffer, the
  accumulator and the cache at anything, each returned with the pieces the body's stores wrote (found by the
  symbolic run).
-/
import proofs.«139742_j68461778698498_2_alg».proof.Proof.Gen.Kernel.Frame
import proofs.«139742_j68461778698498_2_alg».proof.Proof.Gen.Kernel.Skeleton

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Cert.Kernel Cert.Kernel.Gen

set_option maxHeartbeats 4000000 in
/-- The body's run when the inner coordinate is zero: the pieces left in the result's buffer (`L4`), in the
    accumulator (`LS0`) and in the cache (`LS1`), with the proof that the body runs to its end leaving them. -/
noncomputable def runFirst (c : Dev nD) (i : grid0.Coords) (arg2 : Memref sig .tc .vmem S1x256x2048 .bf16) (harg2 : arg2.IsWhole) (arg3 : Memref sig .tc .vmem S2048x1280 .i32) (harg3 : arg3.IsWhole) (arg4 : Memref sig .tc .vmem S1x1280 .f32) (harg4 : arg4.IsWhole) (arg5 : Memref sig .tc .vmem S1x1280 .f32) (harg5 : arg5.IsWhole) (arg6 : Memref sig .tc .vmem S1x256x1280 .f32) (harg6 : arg6.IsWhole) (arg7 : Memref sig .tc .vmem S256x1280 .f32) (harg7 : arg7.IsWhole) (arg8 : Memref sig .tc .vmem S2048x1280 .bf16) (harg8 : arg8.IsWhole) (hc0 : k0_cond1 i = 1#1)
    (x0 : Vec F S1x256x2048 .bf16) (x1 : Vec F S2048x1280 .i32) (x2 : Vec F S1x1280 .f32) (x3 : Vec F S1x1280 .f32) :
    Σ' (L4 : List (View.Piece (Elt F) S1x256x1280 .f32)) (LS0 : List (View.Piece (Elt F) S256x1280 .f32)), { LS1 : List (View.Piece (Elt F) S2048x1280 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc0__lm_head_kernel i arg2 harg2 arg3 harg3 arg4 harg4 arg5 harg5 arg6 harg6 arg7 harg7 arg8 harg8) K } := by
  refine ⟨?_, ?_, ?_, fun E K => ?run⟩
  case run =>
    simp only [cc0__lm_head_kernel_eq_skeleton]; unfold cc0__lm_head_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    iexists _; iexact HS1

end Cert.Kernel.Body

end
-- ==== Proof.BitsRunLater.lean ====
/-
  The kernel body at a grid point whose inner coordinate is not zero. The cache buffer is only read: it still
  holds what the column tile's first point converted into it. The body clears the accumulator, adds the four
  partial products of the row tile's 512-column chunks with the cache's 512-row chunks, and stores
  accumulator * scale + bias into the result's buffer. Stated on whole memrefs: the four inputs and the cache at
  given contents and returned unchanged; the result's buffer and the accumulator at anything, each returned with
  the pieces the body's stores wrote (found by the symbolic run).
-/
import proofs.«139742_j68461778698498_2_alg».proof.Proof.Gen.Kernel.Frame
import proofs.«139742_j68461778698498_2_alg».proof.Proof.Gen.Kernel.Skeleton

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Cert.Kernel Cert.Kernel.Gen

set_option maxHeartbeats 4000000 in
/-- The body's run when the inner coordinate is not zero: the pieces left in the result's buffer (`L4`) and in
    the accumulator (`LS0`), with the proof that the body runs to its end leaving them and the cache as found. -/
noncomputable def runLater (c : Dev nD) (i : grid0.Coords) (arg2 : Memref sig .tc .vmem S1x256x2048 .bf16) (harg2 : arg2.IsWhole) (arg3 : Memref sig .tc .vmem S2048x1280 .i32) (harg3 : arg3.IsWhole) (arg4 : Memref sig .tc .vmem S1x1280 .f32) (harg4 : arg4.IsWhole) (arg5 : Memref sig .tc .vmem S1x1280 .f32) (harg5 : arg5.IsWhole) (arg6 : Memref sig .tc .vmem S1x256x1280 .f32) (harg6 : arg6.IsWhole) (arg7 : Memref sig .tc .vmem S256x1280 .f32) (harg7 : arg7.IsWhole) (arg8 : Memref sig .tc .vmem S2048x1280 .bf16) (harg8 : arg8.IsWhole) (hc0 : ¬ k0_cond1 i = 1#1)
    (x0 : Vec F S1x256x2048 .bf16) (x1 : Vec F S2048x1280 .i32) (x2 : Vec F S1x1280 .f32) (x3 : Vec F S1x1280 .f32) (xs1 : Vec F S2048x1280 .bf16) :
    Σ' (L4 : List (View.Piece (Elt F) S1x256x1280 .f32)), { LS0 : List (View.Piece (Elt F) S256x1280 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d) ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)
                ∗ owns (c : Thread nD τ) arg8 fullShare xs1) -∗ K ⟨⟩))
          ⊢ wp frame (wpE (defs₀ (F := F)) Variants.none c none) E (cc0__lm_head_kernel i arg2 harg2 arg3 harg3 arg4 harg4 arg5 harg5 arg6 harg6 arg7 harg7 arg8 harg8) K } := by
  refine ⟨?_, ?_, fun E K => ?run⟩
  case run =>
    simp only [cc0__lm_head_kernel_eq_skeleton]; unfold cc0__lm_head_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg8.eq_unread hfs1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    iexists _; isplitr; · ipureintro; exact harg8.read_unread _
    iexact HS1

end Cert.Kernel.Body

end
-- ==== Proof.BitsFrame.lean ====
/-
  The frame of the word-level program, at any float instance: after any run of @main the four argument arrays
  hold what they held.

  The one pipeline stages five windows: the hidden-state block (inside its array at every point), the weight,
  scale and bias blocks (the last column tile overhangs their arrays, 50257 = 39 * 1280 + 337, so the transfers at
  those points are cut and the buffers' tails hold words nothing names), and the result's block (cut likewise,
  written back at every point). The frame reads nothing of the result, so the result's window is forgotten: its
  buffer is handed to the body at anything and taken back at anything. Each input's buffer holds, at every point,
  fetched there or not, its block on the part inside the array; the body returns the inputs' buffers as it found
  them, which is all the obligation of a window whose blocks may be cut asks. The two scratch buffers (the
  accumulator and the cache of converted weights) are held by the invariant at anything: where the inner grid
  coordinate is zero the body refills the cache, elsewhere it only reads it, at whatever it holds.
  The weights' array is an input window's array, never written back; the other three argument arrays are staged
  by no window (the pipeline stages the converted hidden states and the reshaped scale and bias) and bypass the
  region.
-/
import proofs.«139742_j68461778698498_2_alg».proof.Proof.BitsRunFirst
import proofs.«139742_j68461778698498_2_alg».proof.Proof.BitsRunLater
import Idealize.ShloMosaic.Lib.Pipeline.FrameBody
import Idealize.ShloMosaic.Lib.Pipeline.Frame
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Cert.Kernel Cert.Kernel.Gen

variable (m : (ℓ : Loc nD τ sig) → Buf (Elt F) ℓ) (ρ : Dev nD → PrngReg)

/-! ## The proof data -/

/-- The windows whose contents after the body the frame does not name: the result's (window 4) only. -/
abbrev fgt : Fin cfg0.W → Bool := fun | 0 => false | 1 => false | 2 => false | 3 => false | 4 => true | ⟨_ + 5, h⟩ => absurd h (Nat.not_lt.2 (Nat.le_add_left _ _))

/-- The proof data of the one pipeline on core `c`: the arrays as the region finds them; after the body at point
    `t` the hidden-state window's buffer at its block, each clipped input's buffer at its block on the part inside
    the array (filled out past the array's end with a word nothing reads), the result's buffer not named; the
    invariant the scratch buffers at anything and the generator register at some state; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (cfg0.win 1).fill (cfg0.grid.coords t) (fun _ => Classical.arbitrary _) (iblk m c 1 t)
    | ⟨2, _⟩ => (cfg0.win 2).fill (cfg0.grid.coords t) (fun _ => Classical.arbitrary _) (iblk m c 2 t)
    | ⟨3, _⟩ => (cfg0.win 3).fill (cfg0.grid.coords t) (fun _ => Classical.arbitrary _) (iblk m c 3 t)
    | ⟨4, _⟩ => Dat.unnamed 4 t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) :
    (dats m 0 c).after 1 t = (cfg0.win 1).fill (cfg0.grid.coords t) (fun _ => Classical.arbitrary _) (iblk m c 1 t) := by dsimp only [dats]
theorem after_2 (c : Dev nD) (t : Fin cfg0.N) :
    (dats m 0 c).after 2 t = (cfg0.win 2).fill (cfg0.grid.coords t) (fun _ => Classical.arbitrary _) (iblk m c 2 t) := by dsimp only [dats]
theorem after_3 (c : Dev nD) (t : Fin cfg0.N) :
    (dats m 0 c).after 3 t = (cfg0.win 3).fill (cfg0.grid.coords t) (fun _ => Classical.arbitrary _) (iblk m c 3 t) := by dsimp only [dats]

/-! ## What the body finds in the input windows' buffers -/

/-- The hidden-state window's buffer holds its block at every point (its blocks lie inside the array). -/
theorem before_0 (c : Dev nD) (t : Fin cfg0.N) (d) : (dats m 0 c).before 0 t d = iblk m c 0 t :=
  before0_0_of m (dats m 0 c) (A_eq m c 0) (after_0 m c) t d

/-- A clipped window's cuts are a function of its block index: they are computed from it axis by axis. -/
theorem hclip_1 (t t' : Fin cfg0.N) (h : (cfg0.win 1).index t = (cfg0.win 1).index t') :
    (cfg0.win 1).clip (cfg0.grid.coords t) = (cfg0.win 1).clip (cfg0.grid.coords t') := by
  funext a
  show Pipeline.Clip.of (cc0_transform_1 (grid0.coords t) a) _ _ = Pipeline.Clip.of (cc0_transform_1 (grid0.coords t') a) _ _
  rw [show cc0_transform_1 (grid0.coords t) = cc0_transform_1 (grid0.coords t') from h]
theorem hclip_2 (t t' : Fin cfg0.N) (h : (cfg0.win 2).index t = (cfg0.win 2).index t') :
    (cfg0.win 2).clip (cfg0.grid.coords t) = (cfg0.win 2).clip (cfg0.grid.coords t') := by
  funext a
  show Pipeline.Clip.of (cc0_transform_2 (grid0.coords t) a) _ _ = Pipeline.Clip.of (cc0_transform_2 (grid0.coords t') a) _ _
  rw [show cc0_transform_2 (grid0.coords t) = cc0_transform_2 (grid0.coords t') from h]
theorem hclip_3 (t t' : Fin cfg0.N) (h : (cfg0.win 3).index t = (cfg0.win 3).index t') :
    (cfg0.win 3).clip (cfg0.grid.coords t) = (cfg0.win 3).clip (cfg0.grid.coords t') := by
  funext a
  show Pipeline.Clip.of (cc0_transform_3 (grid0.coords t) a) _ _ = Pipeline.Clip.of (cc0_transform_3 (grid0.coords t') a) _ _
  rw [show cc0_transform_3 (grid0.coords t) = cc0_transform_3 (grid0.coords t') from h]

/-- What the body leaves in a clipped input's buffer, cut to the part inside the array, is the array's block. -/
theorem hkeep_1 (c : Dev nD) (t : Fin cfg0.N) :
    (cfg0.win 1).cut (cfg0.grid.coords t) ((dats m 0 c).after 1 t) = (dats m 0 c).blockOf 1 t := by
  rw [after_1, Window.cut_fill]; unfold Dat.blockOf iblk; rw [A_eq]
theorem hkeep_2 (c : Dev nD) (t : Fin cfg0.N) :
    (cfg0.win 2).cut (cfg0.grid.coords t) ((dats m 0 c).after 2 t) = (dats m 0 c).blockOf 2 t := by
  rw [after_2, Window.cut_fill]; unfold Dat.blockOf iblk; rw [A_eq]
theorem hkeep_3 (c : Dev nD) (t : Fin cfg0.N) :
    (cfg0.win 3).cut (cfg0.grid.coords t) ((dats m 0 c).after 3 t) = (dats m 0 c).blockOf 3 t := by
  rw [after_3, Window.cut_fill]; unfold Dat.blockOf iblk; rw [A_eq]

/-- A clipped input's buffer holds, at every point, fetched there or not, its block on the part inside the array
    and whatever it held elsewhere: the form in which the loose obligation takes it back. -/
theorem before_1 (c : Dev nD) (t : Fin cfg0.N) (d) :
    (dats m 0 c).before 1 t d = (cfg0.win 1).fill (cfg0.grid.coords t) d ((cfg0.win 1).cut (cfg0.grid.coords t) ((dats m 0 c).after 1 t)) :=
  ((dats m 0 c).before_in_eq_fetched 1 rfl (fun _ => rfl) hclip_1 (hkeep_1 m c) t d).trans (by unfold Dat.fetched; rw [hkeep_1])
theorem before_2 (c : Dev nD) (t : Fin cfg0.N) (d) :
    (dats m 0 c).before 2 t d = (cfg0.win 2).fill (cfg0.grid.coords t) d ((cfg0.win 2).cut (cfg0.grid.coords t) ((dats m 0 c).after 2 t)) :=
  ((dats m 0 c).before_in_eq_fetched 2 rfl (fun _ => rfl) hclip_2 (hkeep_2 m c) t d).trans (by unfold Dat.fetched; rw [hkeep_2])
theorem before_3 (c : Dev nD) (t : Fin cfg0.N) (d) :
    (dats m 0 c).before 3 t d = (cfg0.win 3).fill (cfg0.grid.coords t) d ((cfg0.win 3).cut (cfg0.grid.coords t) ((dats m 0 c).after 3 t)) :=
  ((dats m 0 c).before_in_eq_fetched 3 rfl (fun _ => rfl) hclip_3 (hkeep_3 m c) t d).trans (by unfold Dat.fetched; rw [hkeep_3])

/-! ## The body obligation -/

/-- The scratch operands: whole scoped buffers of the kernel's own, passed beside the windows. -/
abbrev scM0 : Memref sig .tc .vmem S256x1280 .f32 := Memref.whole cc0_scratch0
abbrev scM1 : Memref sig .tc .vmem S2048x1280 .bf16 := Memref.whole cc0_scratch1

/-- The class invariant with the two scratch operands as memrefs owned at some contents. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- Each window's current staging memref at point `t`, spelled as the pipeline passes it to the body. -/
abbrev ms0 (t : Fin cfg0.N) : Memref sig .tc .vmem S1x256x2048 .bf16 := win0_0.stage (cfg0.slots t 0)
abbrev ms1 (t : Fin cfg0.N) : Memref sig .tc .vmem S2048x1280 .i32 := win0_1.stage (cfg0.slots t 1)
abbrev ms2 (t : Fin cfg0.N) : Memref sig .tc .vmem S1x1280 .f32 := win0_2.stage (cfg0.slots t 2)
abbrev ms3 (t : Fin cfg0.N) : Memref sig .tc .vmem S1x1280 .f32 := win0_3.stage (cfg0.slots t 3)
abbrev ms4 (t : Fin cfg0.N) : Memref sig .tc .vmem S1x256x1280 .f32 := win0_4.stage (cfg0.slots t 4)

/-- The invariant is the class's at every point. -/
theorem Phi_eq (c : Dev nD) (t : Fin (cfg0.N + 1)) : (dats m 0 c).Φ t = Pipeline.ΦA spec0 c := by dsimp only [dats]

/-- What the body is called with at point `t`: the invariant, what the core owes, each input window's buffer at
    what it then holds, the result's buffer at anything; -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ X, owns (c : Thread nD τ) (ms4 t) fullShare X))

/-- and what it returns: the hidden-state window's buffer at its block, each clipped input's stated on the part
    inside the array, the result's at anything. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ (∃ d, owns (c : Thread nD τ) (ms1 t) fullShare ((cfg0.win 1).fill (cfg0.grid.coords t) d ((cfg0.win 1).cut (cfg0.grid.coords t) ((dats m 0 c).after 1 t))))
    ∗ (∃ d, owns (c : Thread nD τ) (ms2 t) fullShare ((cfg0.win 2).fill (cfg0.grid.coords t) d ((cfg0.win 2).cut (cfg0.grid.coords t) ((dats m 0 c).after 2 t))))
    ∗ (∃ d, owns (c : Thread nD τ) (ms3 t) fullShare ((cfg0.win 3).fill (cfg0.grid.coords t) d ((cfg0.win 3).cut (cfg0.grid.coords t) ((dats m 0 c).after 3 t))))
    ∗ (∃ X, owns (c : Thread nD τ) (ms4 t) fullShare X))

set_option maxHeartbeats 4000000 in
/-- The body at any point: the inputs' buffers hold their blocks (on the part inside the array); the inner
    coordinate says which of the two runs applies; the invariant hands the run the two scratch buffers at anything
    and takes them back at anything; the inputs come back as handed, the result's buffer with pieces nobody names. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [after_0]
  rw [show (dats m 0 c).owesAt () t.succ = (dats m 0 c).owesAt () t.castSucc from rfl]
  rw [Phi_eq, Phi_eq, PhiA_eq]
  by_cases hc : k0_cond1 (grid0.coords t) = 1#1
  · iintro ⟨⟨⟨HS0, HS1⟩, Hg⟩, Ho, ⟨%d0, H0⟩, ⟨%d1, H1⟩, ⟨%d2, H2⟩, ⟨%d3, H3⟩, H4⟩
    iapply ((runFirst c (grid0.coords t) _ _ _ _ _ _ _ _ _ _ _ _ _ _ hc _ _ _ _).2.2.2 Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, ⟨%f4, H4⟩, ⟨%fs0, HS0⟩, ⟨%fs1, HS1⟩⟩
    isplitl [HS0 HS1 Hg]
    · isplitl [HS0 HS1]
      · isplitl [HS0]
        · iexists _; iapply (owns_intro _ _ _ _); iexact HS0
        · iexists _; iapply (owns_intro _ _ _ _); iexact HS1
      iexact Hg
    isplitl [Ho]; · iexact Ho
    isplitl [H0]; · iexact H0
    isplitl [H1]; · iexists _; iexact H1
    isplitl [H2]; · iexists _; iexact H2
    isplitl [H3]; · iexists _; iexact H3
    iexists _; iapply (owns_intro _ _ _ _); iexact H4
  · iintro ⟨⟨⟨HS0, ⟨%ds1, HS1⟩⟩, Hg⟩, Ho, ⟨%d0, H0⟩, ⟨%d1, H1⟩, ⟨%d2, H2⟩, ⟨%d3, H3⟩, H4⟩
    iapply ((runLater c (grid0.coords t) _ _ _ _ _ _ _ _ _ _ _ _ _ _ hc _ _ _ _ _).2.2 Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, ⟨%f4, H4⟩, ⟨%fs0, HS0⟩, HS1⟩
    isplitl [HS0 HS1 Hg]
    · isplitl [HS0 HS1]
      · isplitl [HS0]
        · iexists _; iapply (owns_intro _ _ _ _); iexact HS0
        · iexists _; iexact HS1
      iexact Hg
    isplitl [Ho]; · iexact Ho
    isplitl [H0]; · iexact H0
    isplitl [H1]; · iexists _; iexact H1
    isplitl [H2]; · iexists _; iexact H2
    isplitl [H3]; · iexists _; iexact H3
    iexists _; iapply (owns_intro _ _ _ _); iexact H4

/-- The library's body obligation with the result's window forgotten, at every point. -/
theorem body_obligation (c : Dev nD) : BodyObligationLoose (dats (F := F) m 0 c) (defs₀ (F := F)) Variants.none () Set.univ fgt := fun t => by
  rw [bigSep_W0, bigSep_W0]
  exact sound_body m c t

/-! ## The run and the frame -/

set_option backward.isDefEq.respectTransparency.types false in
/-- At the compiled mesh, for any values, from any memory with zero counters: every weakly fair execution of @main
    on the TensorCores terminates, and every final state has every input array of the pipeline at its entry contents,
    the result's array at contents nobody names, and every other unscoped buffer as the region found it. -/
theorem run_main : θ_run defs (onTc (τ := τ) (main (F := F))) (s₀ m ρ)
    (Pipeline.RDat.FramePost cfg0 (fun c => (dats m 0 c).toRForget fgt) (V m)) :=
  Pipeline.RDat.θ_run_frame cfgs (0 : Fin 1) launch0 defs₀ Variants.none (fun c => (dats m 0 c).toRForget fgt) m ρ main
    (hbody := fun c => (body_obligation m c).toRForget)
    (hshare := fun c => (dats m 0 c).share_full fun _ => rfl) (howed := fun _ _ => rfl)
    (V := V m) (hmain := hmain m Variants.none) (hA := fun c w => A_eq m c w) (hΦ := fun c t => Phi_eq m c t)

/-- THE FRAME at any float instance: after any run of @main the four argument arrays hold what they held. The
    weights' array is an input window's, never written back; the other three are staged by no window (the pipeline
    stages their converted or reshaped copies) and bypass the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      (Eq.mp (congrFun (((dats m 0 c).toRForget fgt).ArrAt_in 1 rfl cfg0.N) _) ((h c).1 1)).trans ((A_eq m c 1).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (run_main m ρ)

end Cert.Kernel.Body

end
-- ==== Proof.IdealRunFirst.lean ====
/-
  The kernel body at a grid point whose inner coordinate is zero (the first row tile of a column tile).
  There the body first converts the whole integer weight block to floats, chunk of 512 rows by chunk, into the
  cache buffer; then clears the accumulator, adds the four partial products of the row tile's 512-column
  chunks with the cache's 512-row chunks, and stores accumulator * scale + bias into the result's buffer.
  Stated on whole memrefs: the four inputs at given contents and returned unchanged; the result's buffer, the
  accumulator and the cache at anything, each returned with the pieces the body's stores wrote (found by the
  symbolic run).
-/
import proofs.«139742_j68461778698498_2_alg».proof.Proof.Gen.KernelIdeal.Frame
import proofs.«139742_j68461778698498_2_alg».proof.Proof.Gen.KernelIdeal.Skeleton

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Cert.KernelIdeal Cert.KernelIdeal.Gen

set_option maxHeartbeats 4000000 in
/-- The body's run when the inner coordinate is zero: the pieces left in the result's buffer (`L4`), in the
    accumulator (`LS0`) and in the cache (`LS1`), with the proof that the body runs to its end leaving them. -/
noncomputable def runFirst (c : Dev nD) (i : grid0.Coords) (arg2 : Memref sig .tc .vmem S1x256x2048 .bf16) (harg2 : arg2.IsWhole) (arg3 : Memref sig .tc .vmem S2048x1280 .i32) (harg3 : arg3.IsWhole) (arg4 : Memref sig .tc .vmem S1x1280 .f32) (harg4 : arg4.IsWhole) (arg5 : Memref sig .tc .vmem S1x1280 .f32) (harg5 : arg5.IsWhole) (arg6 : Memref sig .tc .vmem S1x256x1280 .f32) (harg6 : arg6.IsWhole) (arg7 : Memref sig .tc .vmem S256x1280 .f32) (harg7 : arg7.IsWhole) (arg8 : Memref sig .tc .vmem S2048x1280 .bf16) (harg8 : arg8.IsWhole) (hc0 : k0_cond1 i = 1#1)
    (x0 : Vec F S1x256x2048 .bf16) (x1 : Vec F S2048x1280 .i32) (x2 : Vec F S1x1280 .f32) (x3 : Vec F S1x1280 .f32) :
    Σ' (L4 : List (View.Piece (Elt F) S1x256x1280 .f32)) (LS0 : List (View.Piece (Elt F) S256x1280 .f32)), { LS1 : List (View.Piece (Elt F) S2048x1280 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc0__lm_head_kernel i arg2 harg2 arg3 harg3 arg4 harg4 arg5 harg5 arg6 harg6 arg7 harg7 arg8 harg8) K } := by
  refine ⟨?_, ?_, ?_, fun E K => ?run⟩
  case run =>
    simp only [cc0__lm_head_kernel_eq_skeleton]; unfold cc0__lm_head_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    iexists _; iexact HS1

end Cert.KernelIdeal.Body

end
-- ==== Proof.IdealRunLater.lean ====
/-
  The kernel body at a grid point whose inner coordinate is not zero. The cache buffer is only read: it still
  holds what the column tile's first point converted into it. The body clears the accumulator, adds the four
  partial products of the row tile's 512-column chunks with the cache's 512-row chunks, and stores
  accumulator * scale + bias into the result's buffer. Stated on whole memrefs: the four inputs and the cache at
  given contents and returned unchanged; the result's buffer and the accumulator at anything, each returned with
  the pieces the body's stores wrote (found by the symbolic run).
-/
import proofs.«139742_j68461778698498_2_alg».proof.Proof.Gen.KernelIdeal.Frame
import proofs.«139742_j68461778698498_2_alg».proof.Proof.Gen.KernelIdeal.Skeleton

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Cert.KernelIdeal Cert.KernelIdeal.Gen

set_option maxHeartbeats 4000000 in
/-- The body's run when the inner coordinate is not zero: the pieces left in the result's buffer (`L4`) and in
    the accumulator (`LS0`), with the proof that the body runs to its end leaving them and the cache as found. -/
noncomputable def runLater (c : Dev nD) (i : grid0.Coords) (arg2 : Memref sig .tc .vmem S1x256x2048 .bf16) (harg2 : arg2.IsWhole) (arg3 : Memref sig .tc .vmem S2048x1280 .i32) (harg3 : arg3.IsWhole) (arg4 : Memref sig .tc .vmem S1x1280 .f32) (harg4 : arg4.IsWhole) (arg5 : Memref sig .tc .vmem S1x1280 .f32) (harg5 : arg5.IsWhole) (arg6 : Memref sig .tc .vmem S1x256x1280 .f32) (harg6 : arg6.IsWhole) (arg7 : Memref sig .tc .vmem S256x1280 .f32) (harg7 : arg7.IsWhole) (arg8 : Memref sig .tc .vmem S2048x1280 .bf16) (harg8 : arg8.IsWhole) (hc0 : ¬ k0_cond1 i = 1#1)
    (x0 : Vec F S1x256x2048 .bf16) (x1 : Vec F S2048x1280 .i32) (x2 : Vec F S1x1280 .f32) (x3 : Vec F S1x1280 .f32) (xs1 : Vec F S2048x1280 .bf16) :
    Σ' (L4 : List (View.Piece (Elt F) S1x256x1280 .f32)), { LS0 : List (View.Piece (Elt F) S256x1280 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d) ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)
                ∗ owns (c : Thread nD τ) arg8 fullShare xs1) -∗ K ⟨⟩))
          ⊢ wp frame (wpE (defs₀ (F := F)) Variants.none c none) E (cc0__lm_head_kernel i arg2 harg2 arg3 harg3 arg4 harg4 arg5 harg5 arg6 harg6 arg7 harg7 arg8 harg8) K } := by
  refine ⟨?_, ?_, fun E K => ?run⟩
  case run =>
    simp only [cc0__lm_head_kernel_eq_skeleton]; unfold cc0__lm_head_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg8.eq_unread hfs1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    iexists _; isplitr; · ipureintro; exact harg8.read_unread _
    iexact HS1

end Cert.KernelIdeal.Body

end
-- ==== Proof.IdealPieces.lean ====
/-
  What the body's stores leave, in closed form (for any float instance).

  The cache buffer after a point with inner coordinate zero holds the integer weight block converted entry by
  entry (`deq`): the four stores of 512 rows each tile the 2048 rows, and each stores the conversion of the rows it
  loaded. The result's buffer after any point holds `outOf x0 W x2 x3`: starting from the zero accumulator, the four
  partial products of the hidden block's 512-column chunks with the 512-row chunks of the cache contents `W` are added
  in order, the sum is multiplied by the scale row broadcast over the rows, and the bias row is added — where `W` is
  the conversion just stored (first case) or what the cache already held (later case).
-/
import proofs.«139742_j68461778698498_2_alg».proof.Proof.IdealRunFirst
import proofs.«139742_j68461778698498_2_alg».proof.Proof.IdealRunLater
import Idealize.ShloMosaic.Lib.Pipeline.Value
import Idealize.ShloMosaic.Lib.Pipeline.FrameBody

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Cert.KernelIdeal Cert.KernelIdeal.Gen

/-- The integer weight block converted entry by entry to the cache's float format. -/
def deq (x1 : Vec F S2048x1280 .i32) : Vec F S2048x1280 .bf16 := truncf .bf16 (sitofp .f32 x1) bitsLt_bf16_f32

/-- Rows `o … o + 511` of a [2048, 1280] buffer. -/
abbrev rowChunk (o : ℕ) (h : ∀ a, (![o, 0] : Fin 2 → ℕ) a + S512x1280.size a ≤ S2048x1280.size a) : Rect S2048x1280 :=
  Rect.unit (s := S2048x1280) ![o, 0] S512x1280.size h
/-- Columns `o … o + 511` of a [1, 256, 2048] buffer. -/
abbrev colChunk (o : ℕ) (h : ∀ a, (![0, 0, o] : Fin 3 → ℕ) a + S1x256x512.size a ≤ S1x256x2048.size a) : Rect S1x256x2048 :=
  Rect.unit (s := S1x256x2048) ![0, 0, o] S1x256x512.size h

theorem hrow (o : ℕ) (ho : o + 512 ≤ 2048) : ∀ a, (![o, 0] : Fin 2 → ℕ) a + S512x1280.size a ≤ S2048x1280.size a := by
  intro a; match a with
  | ⟨0, _⟩ => show o + 512 ≤ 2048; exact ho
  | ⟨1, _⟩ => show 0 + 1280 ≤ 1280; omega
theorem hcol (o : ℕ) (ho : o + 512 ≤ 2048) : ∀ a, (![0, 0, o] : Fin 3 → ℕ) a + S1x256x512.size a ≤ S1x256x2048.size a := by
  intro a; match a with
  | ⟨0, _⟩ => show 0 + 1 ≤ 1; omega
  | ⟨1, _⟩ => show 0 + 256 ≤ 256; omega
  | ⟨2, _⟩ => show o + 512 ≤ 2048; exact ho

/-- What the result's buffer holds after the body, as a function of the hidden block `x0`, the cache contents `W`
    the products are taken with, the scale row `x2` and the bias row `x3`. -/
def outOf (x0 : Vec F S1x256x2048 .bf16) (W : Vec F S2048x1280 .bf16) (x2 x3 : Vec F S1x1280 .f32) : Vec F S1x256x1280 .f32 :=
  k0_pay1 (k0_pay12 (View.ld x2 (Rect.unit (s := S1x1280) ![0, 0] S1x1280.size inb_S1x1280_S1x1280_0_0)))
    (View.ld x3 (Rect.unit (s := S1x1280) ![0, 0] S1x1280.size inb_S1x1280_S1x1280_0_0))
    (k0_pay11 (View.ld x0 (colChunk 1536 (hcol 1536 (by omega)))) (View.ld W (rowChunk 1536 (hrow 1536 (by omega))))
      (k0_pay10 (View.ld x0 (colChunk 1024 (hcol 1024 (by omega)))) (View.ld W (rowChunk 1024 (hrow 1024 (by omega))))
        (k0_pay9 (k0_pay8 (View.ld x0 (colChunk 512 (hcol 512 (by omega)))) (View.ld W (rowChunk 512 (hrow 512 (by omega))))
          (k0_pay7 (View.ld x0 (colChunk 0 (hcol 0 (by omega)))) (View.ld W (rowChunk 0 (hrow 0 (by omega)))) k0_pay6)))))

theorem hz2 : (![0, 0] : Fin 2 → ℕ) = fun _ => 0 := funext fun a => by match a with | ⟨0, _⟩ => rfl | ⟨1, _⟩ => rfl
theorem hz3 : (![0, 0, 0] : Fin 3 → ℕ) = fun _ => 0 := funext fun a => by match a with | ⟨0, _⟩ => rfl | ⟨1, _⟩ => rfl | ⟨2, _⟩ => rfl

/-! ## The later case -/

/-- The stores of the later case cover the result's buffer (one whole store). -/
theorem cover_out_later (c : Dev nD) (i : grid0.Coords) (arg2 : Memref sig .tc .vmem S1x256x2048 .bf16) (harg2 : arg2.IsWhole) (arg3 : Memref sig .tc .vmem S2048x1280 .i32) (harg3 : arg3.IsWhole) (arg4 : Memref sig .tc .vmem S1x1280 .f32) (harg4 : arg4.IsWhole) (arg5 : Memref sig .tc .vmem S1x1280 .f32) (harg5 : arg5.IsWhole) (arg6 : Memref sig .tc .vmem S1x256x1280 .f32) (harg6 : arg6.IsWhole) (arg7 : Memref sig .tc .vmem S256x1280 .f32) (harg7 : arg7.IsWhole) (arg8 : Memref sig .tc .vmem S2048x1280 .bf16) (harg8 : arg8.IsWhole) (hc0 : ¬ k0_cond1 i = 1#1)
    (x0 : Vec F S1x256x2048 .bf16) (x1 : Vec F S2048x1280 .i32) (x2 x3 : Vec F S1x1280 .f32) (xs1 : Vec F S2048x1280 .bf16) (y : S1x256x1280.Idx) :
    ∃ pc ∈ (runLater c i arg2 harg2 arg3 harg3 arg4 harg4 arg5 harg5 arg6 harg6 arg7 harg7 arg8 harg8 hc0 x0 x1 x2 x3 xs1).1, y ∈ pc.1.set :=
  View.cover_of_tiledL (runLater c i arg2 harg2 arg3 harg3 arg4 harg4 arg5 harg5 arg6 harg6 arg7 harg7 arg8 harg8 hc0 x0 x1 x2 x3 xs1).1 S1x256x1280.size (by sl_kernel_rfl) y

/-- In the later case the result's buffer ends at `outOf` of the inputs and the cache as found. -/
theorem out_later (c : Dev nD) (i : grid0.Coords) (arg2 : Memref sig .tc .vmem S1x256x2048 .bf16) (harg2 : arg2.IsWhole) (arg3 : Memref sig .tc .vmem S2048x1280 .i32) (harg3 : arg3.IsWhole) (arg4 : Memref sig .tc .vmem S1x1280 .f32) (harg4 : arg4.IsWhole) (arg5 : Memref sig .tc .vmem S1x1280 .f32) (harg5 : arg5.IsWhole) (arg6 : Memref sig .tc .vmem S1x256x1280 .f32) (harg6 : arg6.IsWhole) (arg7 : Memref sig .tc .vmem S256x1280 .f32) (harg7 : arg7.IsWhole) (arg8 : Memref sig .tc .vmem S2048x1280 .bf16) (harg8 : arg8.IsWhole) (hc0 : ¬ k0_cond1 i = 1#1)
    (x0 : Vec F S1x256x2048 .bf16) (x1 : Vec F S2048x1280 .i32) (x2 x3 : Vec F S1x1280 .f32) (xs1 : Vec F S2048x1280 .bf16) :
    View.canon (runLater c i arg2 harg2 arg3 harg3 arg4 harg4 arg5 harg5 arg6 harg6 arg7 harg7 arg8 harg8 hc0 x0 x1 x2 x3 xs1).1 = outOf x0 xs1 x2 x3 := by
  unfold runLater; dsimp only; sl_unfold_run_names
  rw [View.canon_unit_zero hz3]
  simp only [View.readAt_eq_ld, Memref.IsWhole.read_unread, View.readCov_cons_toLoadRect]
  rfl

/-! ## The first case -/

/-- The four 512-row stores of the conversion, read back as one buffer, are the conversion of the whole block:
    each stores the conversion of the rows it loaded, and together they tile the 2048 rows. -/
theorem cache_pieces (x1 : Vec F S2048x1280 .i32) :
    View.canon (Val := Elt F)
      [(⟨rowChunk 1536 (hrow 1536 (by omega)), k0_pay5 (View.ld x1 (rowChunk 1536 (hrow 1536 (by omega))))⟩ : View.Piece (Elt F) S2048x1280 .bf16),
        ⟨rowChunk 1024 (hrow 1024 (by omega)), k0_pay4 (View.ld x1 (rowChunk 1024 (hrow 1024 (by omega))))⟩,
        ⟨rowChunk 512 (hrow 512 (by omega)), k0_pay3 (View.ld x1 (rowChunk 512 (hrow 512 (by omega))))⟩,
        ⟨rowChunk 0 (hrow 0 (by omega)), k0_pay2 (View.ld x1 (rowChunk 0 (hrow 0 (by omega))))⟩] = deq x1 := by
  funext y
  refine View.canon_apply_of_pieces (deq x1) _ ?_ y ?_
  · intro p hp x
    simp only [List.mem_cons, List.mem_nil_iff, or_false] at hp
    rcases hp with rfl | rfl | rfl | rfl
    · dsimp only; unfold k0_pay5; simp only [shapeCast_self]; rfl
    · dsimp only; unfold k0_pay4; simp only [shapeCast_self]; rfl
    · dsimp only; unfold k0_pay3; simp only [shapeCast_self]; rfl
    · dsimp only; unfold k0_pay2; simp only [shapeCast_self]; rfl
  · exact View.cover_of_tiledL (s := S2048x1280) _ S512x1280.size (by sl_kernel_rfl) y

/-- A load of any rectangle of the cache after those four stores reads the conversion there. -/
theorem readCov_cache {κ : Kind} {sp : Space} (v : View sig κ sp S2048x1280 .bf16) (x1 : Vec F S2048x1280 .i32) (r : Rect S2048x1280) :
    v.readCov
      [(⟨rowChunk 1536 (hrow 1536 (by omega)), k0_pay5 (View.ld x1 (rowChunk 1536 (hrow 1536 (by omega))))⟩ : View.Piece (Elt F) S2048x1280 .bf16),
        ⟨rowChunk 1024 (hrow 1024 (by omega)), k0_pay4 (View.ld x1 (rowChunk 1024 (hrow 1024 (by omega))))⟩,
        ⟨rowChunk 512 (hrow 512 (by omega)), k0_pay3 (View.ld x1 (rowChunk 512 (hrow 512 (by omega))))⟩,
        ⟨rowChunk 0 (hrow 0 (by omega)), k0_pay2 (View.ld x1 (rowChunk 0 (hrow 0 (by omega))))⟩] r.toLoadRect
      = View.ld (deq x1) r := by
  rw [View.readCov_eq_canon_ld v _ r (fun y => View.cover_of_tiledL (s := S2048x1280) _ S512x1280.size (by sl_kernel_rfl) y), cache_pieces]

/-- The stores of the first case cover the result's buffer (one whole store), -/
theorem cover_out_first (c : Dev nD) (i : grid0.Coords) (arg2 : Memref sig .tc .vmem S1x256x2048 .bf16) (harg2 : arg2.IsWhole) (arg3 : Memref sig .tc .vmem S2048x1280 .i32) (harg3 : arg3.IsWhole) (arg4 : Memref sig .tc .vmem S1x1280 .f32) (harg4 : arg4.IsWhole) (arg5 : Memref sig .tc .vmem S1x1280 .f32) (harg5 : arg5.IsWhole) (arg6 : Memref sig .tc .vmem S1x256x1280 .f32) (harg6 : arg6.IsWhole) (arg7 : Memref sig .tc .vmem S256x1280 .f32) (harg7 : arg7.IsWhole) (arg8 : Memref sig .tc .vmem S2048x1280 .bf16) (harg8 : arg8.IsWhole) (hc0 : k0_cond1 i = 1#1)
    (x0 : Vec F S1x256x2048 .bf16) (x1 : Vec F S2048x1280 .i32) (x2 x3 : Vec F S1x1280 .f32) (y : S1x256x1280.Idx) :
    ∃ pc ∈ (runFirst c i arg2 harg2 arg3 harg3 arg4 harg4 arg5 harg5 arg6 harg6 arg7 harg7 arg8 harg8 hc0 x0 x1 x2 x3).1, y ∈ pc.1.set :=
  View.cover_of_tiledL (runFirst c i arg2 harg2 arg3 harg3 arg4 harg4 arg5 harg5 arg6 harg6 arg7 harg7 arg8 harg8 hc0 x0 x1 x2 x3).1 S1x256x1280.size (by sl_kernel_rfl) y

/-- and its four conversion stores cover the cache. -/
theorem cover_cache_first (c : Dev nD) (i : grid0.Coords) (arg2 : Memref sig .tc .vmem S1x256x2048 .bf16) (harg2 : arg2.IsWhole) (arg3 : Memref sig .tc .vmem S2048x1280 .i32) (harg3 : arg3.IsWhole) (arg4 : Memref sig .tc .vmem S1x1280 .f32) (harg4 : arg4.IsWhole) (arg5 : Memref sig .tc .vmem S1x1280 .f32) (harg5 : arg5.IsWhole) (arg6 : Memref sig .tc .vmem S1x256x1280 .f32) (harg6 : arg6.IsWhole) (arg7 : Memref sig .tc .vmem S256x1280 .f32) (harg7 : arg7.IsWhole) (arg8 : Memref sig .tc .vmem S2048x1280 .bf16) (harg8 : arg8.IsWhole) (hc0 : k0_cond1 i = 1#1)
    (x0 : Vec F S1x256x2048 .bf16) (x1 : Vec F S2048x1280 .i32) (x2 x3 : Vec F S1x1280 .f32) (y : S2048x1280.Idx) :
    ∃ pc ∈ (runFirst c i arg2 harg2 arg3 harg3 arg4 harg4 arg5 harg5 arg6 harg6 arg7 harg7 arg8 harg8 hc0 x0 x1 x2 x3).2.2.1, y ∈ pc.1.set :=
  View.cover_of_tiledL (runFirst c i arg2 harg2 arg3 harg3 arg4 harg4 arg5 harg5 arg6 harg6 arg7 harg7 arg8 harg8 hc0 x0 x1 x2 x3).2.2.1 S512x1280.size (by sl_kernel_rfl) y

/-- In the first case the cache ends at the conversion of the weight block, -/
theorem cache_first (c : Dev nD) (i : grid0.Coords) (arg2 : Memref sig .tc .vmem S1x256x2048 .bf16) (harg2 : arg2.IsWhole) (arg3 : Memref sig .tc .vmem S2048x1280 .i32) (harg3 : arg3.IsWhole) (arg4 : Memref sig .tc .vmem S1x1280 .f32) (harg4 : arg4.IsWhole) (arg5 : Memref sig .tc .vmem S1x1280 .f32) (harg5 : arg5.IsWhole) (arg6 : Memref sig .tc .vmem S1x256x1280 .f32) (harg6 : arg6.IsWhole) (arg7 : Memref sig .tc .vmem S256x1280 .f32) (harg7 : arg7.IsWhole) (arg8 : Memref sig .tc .vmem S2048x1280 .bf16) (harg8 : arg8.IsWhole) (hc0 : k0_cond1 i = 1#1)
    (x0 : Vec F S1x256x2048 .bf16) (x1 : Vec F S2048x1280 .i32) (x2 x3 : Vec F S1x1280 .f32) :
    View.canon (runFirst c i arg2 harg2 arg3 harg3 arg4 harg4 arg5 harg5 arg6 harg6 arg7 harg7 arg8 harg8 hc0 x0 x1 x2 x3).2.2.1 = deq x1 := by
  unfold runFirst; dsimp only; sl_unfold_run_names
  simp only [View.readAt_eq_ld, Memref.IsWhole.read_unread]
  exact cache_pieces x1

/-- and the result's buffer at `outOf` of the inputs and that conversion. -/
theorem out_first (c : Dev nD) (i : grid0.Coords) (arg2 : Memref sig .tc .vmem S1x256x2048 .bf16) (harg2 : arg2.IsWhole) (arg3 : Memref sig .tc .vmem S2048x1280 .i32) (harg3 : arg3.IsWhole) (arg4 : Memref sig .tc .vmem S1x1280 .f32) (harg4 : arg4.IsWhole) (arg5 : Memref sig .tc .vmem S1x1280 .f32) (harg5 : arg5.IsWhole) (arg6 : Memref sig .tc .vmem S1x256x1280 .f32) (harg6 : arg6.IsWhole) (arg7 : Memref sig .tc .vmem S256x1280 .f32) (harg7 : arg7.IsWhole) (arg8 : Memref sig .tc .vmem S2048x1280 .bf16) (harg8 : arg8.IsWhole) (hc0 : k0_cond1 i = 1#1)
    (x0 : Vec F S1x256x2048 .bf16) (x1 : Vec F S2048x1280 .i32) (x2 x3 : Vec F S1x1280 .f32) :
    View.canon (runFirst c i arg2 harg2 arg3 harg3 arg4 harg4 arg5 harg5 arg6 harg6 arg7 harg7 arg8 harg8 hc0 x0 x1 x2 x3).1 = outOf x0 (deq x1) x2 x3 := by
  unfold runFirst; dsimp only; sl_unfold_run_names
  rw [View.canon_unit_zero hz3]
  simp only [View.readAt_eq_ld, Memref.IsWhole.read_unread]
  have hc := fun (r : Rect S2048x1280) => readCov_cache arg8.view x1 r
  simp only [rowChunk] at hc
  simp only [hc]
  simp only [View.readCov_cons_toLoadRect]
  rfl

end Cert.KernelIdeal.Body

end
-- ==== Proof.LibSoftplus.lean ====
/-
  Softplus and a plain matrix product read at one entry, at the ideal values (extended reals, every operation exact).

  `sp x = max x 0 + log (1 + e^(-|x|))` is the numerically stable softplus, total on the extended reals. jax's
  `logaddexp x 0` computes it behind a test `d ≠ d` of the difference `d = x - 0`, which no extended real passes, so the
  guarded branch is never taken. `softplus_vector_apply` reads the vector form (the exponent written `0 - |d|`) at an index,
  `softplus_host_apply` the host form (the exponent written as a negation, the zero splat printed three times); both are `sp` of the operand's entry.
  `matmul0_plain_apply`: an [R, K] by [K, N] product accumulated into a zero splat, read at the entry (p, j), is the sum
  over the contracted coordinate of the products — whatever formats the two operands are stored in, since a format
  change is the identity here. `sum_fin256_split`: a sum over 256 coordinates as the sums over its first 64, next 128
  and last 64 coordinates.
-/
import Idealize.ShloMosaic.Lib.ValueIdx
import Idealize.ShloMosaic.Lib.StackMember
import Idealize.ShloMosaic.Lib.KernelVsHost
import Idealize.ShloMosaic.PureOps.Ideal.Laws

noncomputable section

open scoped BigOperators

namespace Cert.Lib.Softplus

open Idealize.ShloMosaic Idealize.ShloMosaic.ValueIdx Idealize.ShloMosaic.StackMember

/-- The stable softplus on the extended reals: `max x 0 + log (1 + e^(-|x|))`. -/
def sp (x : EReal) : EReal :=
  max x 0 + Ideal.log1p (Ideal.exp (-(FloatOps.absf (F := Ideal) (φ := .f32) x)))

/-- No extended real differs from itself: the ordered "not equal" test of a value against itself fails. -/
theorem cmp_one_self (x : EReal) : Ideal.cmp .one x x = 0#1 := by simp [Ideal.cmp]

/-- The unordered "not equal" test of a value against itself fails too (nothing is unordered here). -/
theorem cmp_une_self (x : EReal) : Ideal.cmp .une x x = 0#1 := by simp [Ideal.cmp]

/-- The zero word of f32 is the real zero. -/
theorem zero_word : (FloatOps.ofBits (F := Ideal) .f32 0x00000000#32 : Ideal .f32) = 0 := Ideal.ofBits_zero_f32

/-- The vector form of `logaddexp v 0` (a splat `c` of zero; the exponent as `0 - |v - 0|`), read at an index. -/
theorem softplus_vector_apply {s : Shape} (c : Ideal .f32) (hc : c = 0) (v : FVec Ideal s .f32) (i : s.Idx) :
    select (cmpf .one (subf v (broadcast s c)) (subf v (broadcast s c)))
      (addf v (broadcast s c))
      (addf (maximumf v (broadcast s c))
        (log1p (exp (subf (broadcast s c) (absf (subf v (broadcast s c))))))) i
    = sp (v i) := by
  subst hc
  show Scalar.select (Ideal.cmp .one (v i - 0) (v i - 0)) (v i + 0)
      (max (v i) 0 + Ideal.log1p (Ideal.exp (0 - FloatOps.absf (F := Ideal) (φ := .f32) (v i - 0)))) = _
  rw [sub_zero, zero_sub, cmp_one_self, select_zero]
  rfl

/-- The host form of `logaddexp v 0` (the three splats of zero it prints as any arrays that are zero everywhere; the
    exponent as the negation of `|v - 0|`), read at an index. -/
theorem softplus_host_apply {s : Shape} (v z0 z1 z2 : FVec Ideal s .f32)
    (h0 : ∀ i, z0 i = 0) (h1 : ∀ i, z1 i = 0) (h2 : ∀ i, z2 i = 0) (i : s.Idx) :
    select (cmpf .une (subf v z1) (subf v z1)) (addf v z2)
      (addf (maximumf v z0) (Host.log1p (Host.exp (Host.negf (Host.absf (subf v z1)))))) i
    = sp (v i) := by
  show Scalar.select (Ideal.cmp .une (v i - z1 i) (v i - z1 i)) (v i + z2 i)
      (max (v i) (z0 i) + Ideal.log1p (Ideal.exp (-(FloatOps.absf (F := Ideal) (φ := .f32) (v i - z1 i))))) = _
  rw [h0, h1, h2, sub_zero, cmp_une_self, select_zero]
  rfl

/-- A plain [R, K] by [K, N] product into a zero accumulator, read at (p, j), whatever the operands' formats. The
    dimension numbers are any record equal to the plain ones. -/
theorem matmul0_plain_apply {R K N : Nat} {φ₁ φ₂ : FTy} (D : DotDims ⟨2, ![R, K]⟩ ⟨2, ![K, N]⟩ ⟨2, ![R, N]⟩)
    (hD : D = DotDims.plain R K N) (prec : Option ContractPrecision)
    (h : FVec Ideal ⟨2, ![R, K]⟩ φ₁) (w : FVec Ideal ⟨2, ![K, N]⟩ φ₂) (p : Fin R) (j : Fin N) :
    matmul D prec h w (constant ⟨2, ![R, N]⟩ .f32 0x00000000#32) (ix2 p j) = ∑ k : Fin K, h (ix2 p k) * w (ix2 k j) := by
  subst hD
  exact (congrFun (matmul_zero_eq_dotGeneral _ prec h w) _).trans (dotGeneral_plain_apply prec h w p j)

/-- A sum over 256 coordinates, split where a 64-, a 128- and a 64-wide piece were joined. -/
theorem sum_fin256_split {M : Type*} [AddCommMonoid M] (f : Fin 256 → M) :
    ∑ q : Fin 256, f q
      = (∑ k : Fin 64, f ⟨k.val, by omega⟩ + ∑ k : Fin 128, f ⟨64 + k.val, by omega⟩) + ∑ k : Fin 64, f ⟨192 + k.val, by omega⟩ := by
  have e : ∑ q : Fin 256, f q = ∑ q : Fin (64 + 128 + 64), f q := rfl
  rw [e, Fin.sum_univ_add, Fin.sum_univ_add]
  rfl

end Cert.Lib.Softplus

end
-- ==== Proof.Spec.lean ====
/-
  The specification both programs meet at the ideal instance: the logits of a linear head whose weight
  matrix is stored as integers. For hidden states `h` (one batch of 2048 rows of 2048 reals), integer weights `w`
  (2048 by 50257), and per-column reals `s` (scale) and `b` (bias):

      logits h w s b [0, t, v] = (Σ_{d < 2048} h[0, t, d] · w[d, v]) · s[v] + b[v]

  over the extended reals, the integer read as the real number it denotes (signed).
-/
import Idealize.ShloMosaic.PureOps.Ideal
import Idealize.ShloMosaic.Lib.ValueIdx

noncomputable section

namespace Cert.Spec

open Idealize.ShloMosaic Idealize.ShloMosaic.ValueIdx

/-- An integer weight as an extended real: the signed integer its 32-bit word denotes. -/
abbrev wt (x : BitVec 32) : EReal := ((x.toInt : ℝ) : EReal)

/-- The head's logits: row `t` of the hidden states against column `v` of the weights, times the column's scale,
    plus the column's bias. -/
def logits (h : (⟨3, ![1, 2048, 2048]⟩ : Shape).Idx → EReal) (w : (⟨2, ![2048, 50257]⟩ : Shape).Idx → BitVec 32)
    (s b : (⟨1, ![50257]⟩ : Shape).Idx → EReal) : (⟨3, ![1, 2048, 50257]⟩ : Shape).Idx → EReal :=
  fun i => (∑ k : Fin 2048, h (ix3 (0 : Fin 1) (⟨(i 1).val, (i 1).isLt⟩ : Fin 2048) k) * wt (w (ix2 k (⟨(i 2).val, (i 2).isLt⟩ : Fin 50257))))
      * s (ix1 (⟨(i 2).val, (i 2).isLt⟩ : Fin 50257)) + b (ix1 (⟨(i 2).val, (i 2).isLt⟩ : Fin 50257))

/-- The same at explicit coordinates. -/
theorem logits_apply (h : (⟨3, ![1, 2048, 2048]⟩ : Shape).Idx → EReal) (w : (⟨2, ![2048, 50257]⟩ : Shape).Idx → BitVec 32)
    (s b : (⟨1, ![50257]⟩ : Shape).Idx → EReal) (t : Fin 2048) (v : Fin 50257) :
    logits h w s b (ix3 (0 : Fin 1) t v) = (∑ k : Fin 2048, h (ix3 (0 : Fin 1) t k) * wt (w (ix2 k v))) * s (ix1 v) + b (ix1 v) := rfl

/-- A sum over 2048 terms is the sum of its four consecutive stretches of 512 (the order in which the kernel
    accumulates it), starting from zero. -/
theorem sum_four_chunks {M : Type*} [AddCommMonoid M] (f : Fin 2048 → M) :
    ((((0 + ∑ k : Fin 512, f ⟨k.val, by omega⟩) + ∑ k : Fin 512, f ⟨512 + k.val, by omega⟩)
        + ∑ k : Fin 512, f ⟨1024 + k.val, by omega⟩) + ∑ k : Fin 512, f ⟨1536 + k.val, by omega⟩)
      = ∑ k : Fin 2048, f k := by
  rw [zero_add]
  have h4 : ∀ (g : ℕ → M), (∑ k ∈ Finset.range 2048, g k)
      = (((∑ k ∈ Finset.range 512, g k) + ∑ k ∈ Finset.range 512, g (512 + k)) + ∑ k ∈ Finset.range 512, g (1024 + k))
          + ∑ k ∈ Finset.range 512, g (1536 + k) := by
    intro g
    rw [show (2048 : ℕ) = 1536 + 512 from rfl, Finset.sum_range_add, show (1536 : ℕ) = 1024 + 512 from rfl, Finset.sum_range_add,
      show (1024 : ℕ) = 512 + 512 from rfl, Finset.sum_range_add]
  let g : ℕ → M := fun k => if hk : k < 2048 then f ⟨k, hk⟩ else 0
  have e0 : ∑ k : Fin 2048, f k = ∑ k ∈ Finset.range 2048, g k := by
    rw [Finset.sum_range]; exact Finset.sum_congr rfl fun k _ => by simp only [g, dif_pos k.isLt]
  have e : ∀ (o : ℕ) (ho : o + 512 ≤ 2048), (∑ k : Fin 512, f ⟨o + k.val, by omega⟩) = ∑ k ∈ Finset.range 512, g (o + k) := by
    intro o ho
    rw [Finset.sum_range]; exact Finset.sum_congr rfl fun k _ => by simp only [g, dif_pos (show o + k.val < 2048 by omega)]
  have e00 : (∑ k : Fin 512, f ⟨k.val, by omega⟩) = ∑ k ∈ Finset.range 512, g k := by
    rw [Finset.sum_range]; exact Finset.sum_congr rfl fun k _ => by simp only [g, dif_pos (show k.val < 2048 by omega)]
  rw [e0, h4 g, ← e 512 (by omega), ← e 1024 (by omega), ← e 1536 (by omega), ← e00]

end Cert.Spec

end
-- ==== Proof.IdealOutValue.lean ====
/-
  The body's result at one entry, at the ideal values. Format changes are the identity and the matrix unit's
  product into a zero accumulator is the exact sum of products, so entry (r, j) of the result's buffer is

      (Σ_{k < 2048} x0[0, r, k] · W[k, j]) · x2[0, j] + x3[0, j] :

  the accumulator starts at zero and takes the four partial sums over k in [0,512), [512,1024), [1024,1536),
  [1536,2048) in that order, which regroup into the one sum (addition of extended reals is associative).
-/
import proofs.«139742_j68461778698498_2_alg».proof.Proof.IdealPieces
import proofs.«139742_j68461778698498_2_alg».proof.Proof.LibSoftplus
import proofs.«139742_j68461778698498_2_alg».proof.Proof.Spec
import Idealize.ShloMosaic.Lib.ValueLayout
import Idealize.ShloMosaic.PureOps.Ideal.Laws

set_option maxRecDepth 16384

noncomputable section

namespace Cert.KernelIdeal.Body

open Idealize.ShloMosaic Idealize.ShloMosaic.ValueIdx
open Cert.KernelIdeal Cert.KernelIdeal.Gen

/-- The body's contraction is the plain one: rows by columns. -/
theorem dot_plain : dot_S256x512_S512x1280_S256x1280_1_0_0_1_n_n = DotDims.plain 256 512 1280 := rfl

/-- A 512-column chunk of the hidden block at an entry. -/
theorem ld_col (X : Vec Ideal S1x256x2048 .bf16) (o : ℕ) (ho : o + 512 ≤ 2048) (r : Fin 256) (k : Fin 512) :
    View.ld X (colChunk o (hcol o ho)) (ix3 (0 : Fin 1) r k) = X (ix3 (0 : Fin 1) r (⟨o + k.val, by omega⟩ : Fin 2048)) := by
  show X ((colChunk o (hcol o ho)).emb (ix3 (0 : Fin 1) r k)) = _
  refine congrArg X (funext fun a => Fin.ext ?_)
  rw [Rect.emb_apply]
  match a with
  | ⟨0, _⟩ => show 0 + 1 * 0 = 0; rfl
  | ⟨1, _⟩ => show 0 + 1 * r.val = r.val; omega
  | ⟨2, _⟩ => show o + 1 * k.val = o + k.val; omega

/-- A 512-row chunk of the cache at an entry. -/
theorem ld_row (W : Vec Ideal S2048x1280 .bf16) (o : ℕ) (ho : o + 512 ≤ 2048) (k : Fin 512) (j : Fin 1280) :
    View.ld W (rowChunk o (hrow o ho)) (ix2 k j) = W (ix2 (⟨o + k.val, by omega⟩ : Fin 2048) j) := by
  show W ((rowChunk o (hrow o ho)).emb (ix2 k j)) = _
  refine congrArg W (funext fun a => Fin.ext ?_)
  rw [Rect.emb_apply]
  match a with
  | ⟨0, _⟩ => show o + 1 * k.val = o + k.val; omega
  | ⟨1, _⟩ => show 0 + 1 * j.val = j.val; omega

/-- One accumulation step at an entry: the accumulator's entry plus the chunk's sum of products. -/
theorem acc_step (xc : FVec Ideal S1x256x512 .bf16) (Wc : FVec Ideal S512x1280 .bf16) (acc : FVec Ideal S256x1280 .f32) (r : Fin 256) (j : Fin 1280) :
    (addf (F := Ideal) acc (matmul (F := Ideal) (φ₁ := .bf16) (φ₂ := .bf16) dot_S256x512_S512x1280_S256x1280_1_0_0_1_n_n none (shapeCast S256x512 xc shapeCasts_S1x256x512_S256x512 : FVec Ideal S256x512 .bf16) Wc
        (constant (F := Ideal) S256x1280 .f32 0x00000000#32)) : FVec Ideal S256x1280 .f32) (ix2 r j)
      = acc (ix2 r j) + ∑ k : Fin 512, xc (ix3 (0 : Fin 1) r k) * Wc (ix2 k j) := by
  rw [addf_apply, Cert.Lib.Softplus.matmul0_plain_apply _ dot_plain]
  simp only [shapeCast_1ab_ab_apply]

theorem pay7_apply (xc : Vec Ideal S1x256x512 .bf16) (Wc : Vec Ideal S512x1280 .bf16) (acc : Vec Ideal S256x1280 .f32) (r : Fin 256) (j : Fin 1280) :
    k0_pay7 xc Wc acc (ix2 r j) = acc (ix2 r j) + ∑ k : Fin 512, xc (ix3 (0 : Fin 1) r k) * Wc (ix2 k j) := by
  unfold k0_pay7; simp only [shapeCast_self]; exact acc_step xc Wc acc r j
theorem pay8_apply (xc : Vec Ideal S1x256x512 .bf16) (Wc : Vec Ideal S512x1280 .bf16) (acc : Vec Ideal S256x1280 .f32) (r : Fin 256) (j : Fin 1280) :
    k0_pay8 xc Wc acc (ix2 r j) = acc (ix2 r j) + ∑ k : Fin 512, xc (ix3 (0 : Fin 1) r k) * Wc (ix2 k j) := by
  unfold k0_pay8; exact acc_step xc Wc acc r j
theorem pay9_eq (v : FVec Ideal S256x1280 .f32) : k0_pay9 v = v := by
  unfold k0_pay9; simp only [shapeCast_self]
theorem pay10_apply (xc : Vec Ideal S1x256x512 .bf16) (Wc : Vec Ideal S512x1280 .bf16) (acc : Vec Ideal S256x1280 .f32) (r : Fin 256) (j : Fin 1280) :
    k0_pay10 xc Wc acc (ix2 r j) = acc (ix2 r j) + ∑ k : Fin 512, xc (ix3 (0 : Fin 1) r k) * Wc (ix2 k j) := by
  unfold k0_pay10; simp only [shapeCast_self]; exact acc_step xc Wc acc r j
theorem pay11_apply (xc : Vec Ideal S1x256x512 .bf16) (Wc : Vec Ideal S512x1280 .bf16) (acc : Vec Ideal S256x1280 .f32) (r : Fin 256) (j : Fin 1280) :
    k0_pay11 xc Wc acc (ix2 r j) = acc (ix2 r j) + ∑ k : Fin 512, xc (ix3 (0 : Fin 1) r k) * Wc (ix2 k j) := by
  unfold k0_pay11; simp only [shapeCast_self]; exact acc_step xc Wc acc r j
/-- The cleared accumulator. -/
theorem pay6_apply (r : Fin 256) (j : Fin 1280) : k0_pay6 (F := Ideal) (ix2 r j) = 0 := by
  unfold k0_pay6; simp only [shapeCast_self]
  show Scalar.ofBits (F := Ideal) .f32 0x00000000#32 = 0
  exact Ideal.ofBits_zero_f32
/-- The scale row broadcast over the rows. -/
theorem pay12_apply (v : Vec Ideal S1x1280 .f32) (r : Fin 256) (j : Fin 1280) : k0_pay12 v (ix2 r j) = v (ix2 (0 : Fin 1) j) := by
  unfold k0_pay12; simp only [shapeCast_self]; exact broadcastTo_1b_ab_apply _ _ r j
/-- The last step: accumulator times scale plus the bias row. -/
theorem pay1_apply (v62 : FVec Ideal S256x1280 .f32) (v63 : Vec Ideal S1x1280 .f32) (v67 : Vec Ideal S256x1280 .f32) (r : Fin 256) (j : Fin 1280) :
    k0_pay1 v62 v63 v67 (ix3 (0 : Fin 1) r j) = v67 (ix2 r j) * v62 (ix2 r j) + v63 (ix2 (0 : Fin 1) j) := by
  unfold k0_pay1; simp only [shapeCast_self]
  rw [shapeCast_ab_1ab_apply, addf_apply, mulf_apply, broadcastTo_1b_ab_apply]

/-- Entry (r, j) of what the body leaves in the result's buffer. -/
theorem outOf_apply (x0 : Vec Ideal S1x256x2048 .bf16) (W : Vec Ideal S2048x1280 .bf16) (x2 x3 : Vec Ideal S1x1280 .f32) (r : Fin 256) (j : Fin 1280) :
    outOf (F := Ideal) x0 W x2 x3 (ix3 (0 : Fin 1) r j)
      = (∑ k : Fin 2048, x0 (ix3 (0 : Fin 1) r k) * W (ix2 k j)) * x2 (ix2 (0 : Fin 1) j) + x3 (ix2 (0 : Fin 1) j) := by
  unfold outOf
  rw [pay1_apply, pay12_apply, pay11_apply, pay10_apply, pay9_eq, pay8_apply, pay7_apply, pay6_apply,
    View.ld_unit_zero hz2, View.ld_unit_zero hz2]
  simp only [ld_col x0 0 (by omega), ld_col x0 512 (by omega), ld_col x0 1024 (by omega), ld_col x0 1536 (by omega),
    ld_row W 0 (by omega), ld_row W 512 (by omega), ld_row W 1024 (by omega), ld_row W 1536 (by omega)]
  rw [← Cert.Spec.sum_four_chunks (fun k : Fin 2048 => x0 (ix3 (0 : Fin 1) r k) * W (ix2 k j))]
  simp only [Nat.zero_add]

end Cert.KernelIdeal.Body

end
-- ==== Proof.IdealCover.lean ====
/-
  Where the windows' blocks sit, and that the output's blocks cover the result.

  The grid has 40 column tiles of 1280 columns by 8 row tiles of 256 rows; point t = 8·n + mt is column tile
  n = t / 8 and row tile mt = t % 8. The 50257 columns are 39 whole tiles and one of 337 columns
  (50257 = 39·1280 + 337), so the last column tile's blocks are cut to their first 337 columns; on every other
  axis the blocks tile their arrays exactly.

  The result's index (0, r, v) lies in the block of the point 8·(v / 1280) + r / 256, and every point writes its
  block back: the blocks written back cover the result array.
-/
import proofs.«139742_j68461778698498_2_alg».proof.Proof.Gen.KernelIdeal.Frame
import Idealize.ShloMosaic.Lib.Pipeline.Value

-- membership in a rectangle whose long axes have thousands of coordinates
set_option maxRecDepth 16384

noncomputable section

namespace Cert.KernelIdeal.Body

open Cert.KernelIdeal Cert.KernelIdeal.Gen
open Idealize.ShloMosaic Idealize.ShloMosaic.TcCoe
open Idealize.SL.Sem

/-! ## The block indices, decided once over the grid's 320 points -/

/-- The hidden states' block at point t: row tile t % 8 of the one batch, all 2048 features. -/
theorem blk0_index : ∀ t : Fin cfg0.N,
    win0_0.index t (0 : Fin 3) = 0 ∧ win0_0.index t (1 : Fin 3) = t.val % 8 ∧ win0_0.index t (2 : Fin 3) = 0 :=
  (by decide +kernel : ∀ t : Fin grid0.N,
    win0_0.index t (0 : Fin 3) = 0 ∧ win0_0.index t (1 : Fin 3) = t.val % 8 ∧ win0_0.index t (2 : Fin 3) = 0)

/-- The weights' block at point t: all 2048 rows of column tile t / 8. -/
theorem blk1_index : ∀ t : Fin cfg0.N, win0_1.index t (0 : Fin 2) = 0 ∧ win0_1.index t (1 : Fin 2) = t.val / 8 :=
  (by decide +kernel : ∀ t : Fin grid0.N, win0_1.index t (0 : Fin 2) = 0 ∧ win0_1.index t (1 : Fin 2) = t.val / 8)

/-- The scales' block at point t: column tile t / 8. -/
theorem blk2_index : ∀ t : Fin cfg0.N, win0_2.index t (0 : Fin 2) = 0 ∧ win0_2.index t (1 : Fin 2) = t.val / 8 :=
  (by decide +kernel : ∀ t : Fin grid0.N, win0_2.index t (0 : Fin 2) = 0 ∧ win0_2.index t (1 : Fin 2) = t.val / 8)

/-- The biases' block at point t: column tile t / 8. -/
theorem blk3_index : ∀ t : Fin cfg0.N, win0_3.index t (0 : Fin 2) = 0 ∧ win0_3.index t (1 : Fin 2) = t.val / 8 :=
  (by decide +kernel : ∀ t : Fin grid0.N, win0_3.index t (0 : Fin 2) = 0 ∧ win0_3.index t (1 : Fin 2) = t.val / 8)

/-- The result's block at point t: row tile t % 8 by column tile t / 8 of the one batch. -/
theorem blk4_index : ∀ t : Fin cfg0.N,
    win0_4.index t (0 : Fin 3) = 0 ∧ win0_4.index t (1 : Fin 3) = t.val % 8 ∧ win0_4.index t (2 : Fin 3) = t.val / 8 :=
  (by decide +kernel : ∀ t : Fin grid0.N,
    win0_4.index t (0 : Fin 3) = 0 ∧ win0_4.index t (1 : Fin 3) = t.val % 8 ∧ win0_4.index t (2 : Fin 3) = t.val / 8)

/-! ## The blocks' extents: cut at column 50257 on the last column tile, whole elsewhere -/

/-- The hidden states' blocks are never cut. -/
theorem blk0_xsize (t : Fin cfg0.N) : win0_0.xsize (grid0.coords t) (0 : Fin 3) = 1
    ∧ win0_0.xsize (grid0.coords t) (1 : Fin 3) = 256 ∧ win0_0.xsize (grid0.coords t) (2 : Fin 3) = 2048 :=
  ⟨rfl, rfl, rfl⟩

/-- The weights' block keeps its 2048 rows and the columns of its tile that the array has. -/
theorem blk1_xsize : ∀ t : Fin cfg0.N, win0_1.xsize (grid0.coords t) (0 : Fin 2) = 2048
    ∧ win0_1.xsize (grid0.coords t) (1 : Fin 2) = min 1280 (50257 - 1280 * (t.val / 8)) :=
  (by decide +kernel : ∀ t : Fin grid0.N, win0_1.xsize (grid0.coords t) (0 : Fin 2) = 2048
    ∧ win0_1.xsize (grid0.coords t) (1 : Fin 2) = min 1280 (50257 - 1280 * (t.val / 8)))

/-- The scales' block keeps the columns of its tile that the array has. -/
theorem blk2_xsize : ∀ t : Fin cfg0.N, win0_2.xsize (grid0.coords t) (0 : Fin 2) = 1
    ∧ win0_2.xsize (grid0.coords t) (1 : Fin 2) = min 1280 (50257 - 1280 * (t.val / 8)) :=
  (by decide +kernel : ∀ t : Fin grid0.N, win0_2.xsize (grid0.coords t) (0 : Fin 2) = 1
    ∧ win0_2.xsize (grid0.coords t) (1 : Fin 2) = min 1280 (50257 - 1280 * (t.val / 8)))

/-- The biases' block keeps the columns of its tile that the array has. -/
theorem blk3_xsize : ∀ t : Fin cfg0.N, win0_3.xsize (grid0.coords t) (0 : Fin 2) = 1
    ∧ win0_3.xsize (grid0.coords t) (1 : Fin 2) = min 1280 (50257 - 1280 * (t.val / 8)) :=
  (by decide +kernel : ∀ t : Fin grid0.N, win0_3.xsize (grid0.coords t) (0 : Fin 2) = 1
    ∧ win0_3.xsize (grid0.coords t) (1 : Fin 2) = min 1280 (50257 - 1280 * (t.val / 8)))

/-- The result's block keeps its batch and its 256 rows and the columns of its tile that the array has. -/
theorem blk4_xsize : ∀ t : Fin cfg0.N, win0_4.xsize (grid0.coords t) (0 : Fin 3) = 1
    ∧ win0_4.xsize (grid0.coords t) (1 : Fin 3) = 256
    ∧ win0_4.xsize (grid0.coords t) (2 : Fin 3) = min 1280 (50257 - 1280 * (t.val / 8)) :=
  (by decide +kernel : ∀ t : Fin grid0.N, win0_4.xsize (grid0.coords t) (0 : Fin 3) = 1
    ∧ win0_4.xsize (grid0.coords t) (1 : Fin 3) = 256
    ∧ win0_4.xsize (grid0.coords t) (2 : Fin 3) = min 1280 (50257 - 1280 * (t.val / 8)))

/-! ## Membership in the result's block -/

/-- An index of the result array is in point t's block iff each coordinate is in the block's range on its axis. -/
theorem mem_blk4 (t : Fin cfg0.N) (i : S1x2048x50257.Idx) :
    i ∈ ((cfg0.win 4).blk t).view.set ↔ ∀ a : Fin 3, win0_4.index t a * S1x256x1280.size a ≤ (i a).val
      ∧ (i a).val < win0_4.index t a * S1x256x1280.size a + win0_4.xsize (grid0.coords t) a := by
  show i ∈ ((View.whole main_v3).slice (win0_4.rect t)).set ↔ _
  rw [View.set_slice_whole, Rect.mem_set_unit]
  exact Iff.rfl

/-- The same in closed form: the row is in row tile t % 8 and the column in column tile t / 8 (the array's own
    bounds take care of the batch and of the last tile's cut). -/
theorem mem_blk4_iff (t : Fin cfg0.N) (i : S1x2048x50257.Idx) :
    i ∈ ((cfg0.win 4).blk t).view.set ↔ (t.val % 8) * 256 ≤ (i 1).val ∧ (i 1).val < (t.val % 8) * 256 + 256
      ∧ (t.val / 8) * 1280 ≤ (i 2).val ∧ (i 2).val < (t.val / 8) * 1280 + 1280 := by
  rw [mem_blk4]
  obtain ⟨e0, e1, e2⟩ := blk4_index t
  obtain ⟨x0, x1, x2⟩ := blk4_xsize t
  have h0 : (i 0).val < 1 := (i 0).isLt
  have h2 : (i 2).val < 50257 := (i 2).isLt
  constructor
  · intro h
    have b1 : win0_4.index t (1 : Fin 3) * 256 ≤ (i 1).val
        ∧ (i 1).val < win0_4.index t (1 : Fin 3) * 256 + win0_4.xsize (grid0.coords t) (1 : Fin 3) := h 1
    have b2 : win0_4.index t (2 : Fin 3) * 1280 ≤ (i 2).val
        ∧ (i 2).val < win0_4.index t (2 : Fin 3) * 1280 + win0_4.xsize (grid0.coords t) (2 : Fin 3) := h 2
    rw [e1, x1] at b1
    rw [e2, x2] at b2
    omega
  · intro h a
    match a with
    | ⟨0, _⟩ =>
      show win0_4.index t (0 : Fin 3) * 1 ≤ (i 0).val
        ∧ (i 0).val < win0_4.index t (0 : Fin 3) * 1 + win0_4.xsize (grid0.coords t) (0 : Fin 3)
      rw [e0, x0]; omega
    | ⟨1, _⟩ =>
      show win0_4.index t (1 : Fin 3) * 256 ≤ (i 1).val
        ∧ (i 1).val < win0_4.index t (1 : Fin 3) * 256 + win0_4.xsize (grid0.coords t) (1 : Fin 3)
      rw [e1, x1]; omega
    | ⟨2, _⟩ =>
      show win0_4.index t (2 : Fin 3) * 1280 ≤ (i 2).val
        ∧ (i 2).val < win0_4.index t (2 : Fin 3) * 1280 + win0_4.xsize (grid0.coords t) (2 : Fin 3)
      rw [e2, x2]; omega

/-! ## The blocks written back cover the result -/

/-- The point whose block holds the result's index (0, r, v): column tile v / 1280, row tile r / 256. -/
theorem cover_point (i : S1x2048x50257.Idx) :
    ∃ t : Fin cfg0.N, t.val = 8 * ((i 2).val / 1280) + (i 1).val / 256 := by
  have h1 : (i 1).val < 2048 := (i 1).isLt
  have h2 : (i 2).val < 50257 := (i 2).isLt
  exact ⟨⟨8 * ((i 2).val / 1280) + (i 1).val / 256, lt_of_lt_of_eq (by omega : _ < 320) N_0.symm⟩, rfl⟩

/-- Every index of the result array is in the block of a point that writes it back. -/
theorem cover_out (c : Dev nD) (i : ((cfg0.win 4).arr.view.loc (c.tc : Thread nD τ)).2.ty.Idx) :
    ∃ t : Fin cfg0.N, (cfg0.win 4).flush t = true ∧ i ∈ ((cfg0.win 4).blk t).view.set := by
  change S1x2048x50257.Idx at i
  obtain ⟨t, ht⟩ := cover_point i
  refine ⟨t, flush0_4 t, ?_⟩
  have h1 : (i 1).val < 2048 := (i 1).isLt
  have h2 : (i 2).val < 50257 := (i 2).isLt
  rw [mem_blk4_iff]
  omega

end Cert.KernelIdeal.Body

end
-- ==== Proof.IdealBlocks.lean ====
/-
  The windows' blocks read at an entry, at the ideal values, in terms of the arrays @main was launched with.

  Before the region @main converts the hidden states to the staging format (the identity here) and views the
  scale and bias vectors as one-row matrices. At grid point t (column tile n = t / 8, row tile mt = t % 8):
  entry (0, r, k) of the hidden block is the hidden states' entry (0, 256·mt + r, k); entry (k, j) of the weight
  block is the weights' entry (k, 1280·n + j), entry (0, j) of the scale and bias blocks the vectors' entry
  1280·n + j — for the columns j that lie inside the arrays (the last tile has 337 of them); past them the staging
  buffers hold words nothing names. Entry (0, r, j) of the result's block is the result's entry
  (0, 256·mt + r, 1280·n + j).
-/
import proofs.«139742_j68461778698498_2_alg».proof.Proof.IdealOutValue
import proofs.«139742_j68461778698498_2_alg».proof.Proof.IdealCover
import proofs.«139742_j68461778698498_2_alg».proof.Proof.Spec
import Idealize.ShloMosaic.Lib.StableHlo.Run
import Idealize.ShloMosaic.Lib.ValueLayout
import Idealize.ShloMosaic.Lib.Tactic

set_option maxRecDepth 16384

noncomputable section

namespace Cert.KernelIdeal.Body

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

open Idealize.ShloMosaic.StableHlo

/-! ## What the region finds in the arrays @main computed -/

/-- The staged hidden states are the launched ones converted (the identity at the ideal values). -/
theorem V_v0 (c : Dev nD) : (V m c main_v0 : S1x2048x2048.Idx → Elt Ideal .bf16)
    = (truncf (F := Ideal) .bf16 (m ((c : Thread nD τ).loc main_arg0) : FVec Ideal S1x2048x2048 .f32) bitsLt_bf16_f32 : FVec Ideal S1x2048x2048 .bf16) := by
  dsimp only [Gen.V, Gen.hostOps0]; after_results; try rfl
/-- The staged scale row is the launched scale vector viewed as one row. -/
theorem V_v1 (c : Dev nD) : (V m c main_v1 : S1x50257.Idx → Elt Ideal .f32)
    = (shapeCast S1x50257 (m ((c : Thread nD τ).loc main_arg2) : S50257.Idx → Elt Ideal .f32) shapeCasts_S50257_S1x50257 : S1x50257.Idx → Elt Ideal .f32) := by
  dsimp only [Gen.V, Gen.hostOps0]; after_results; try rfl
/-- The staged bias row is the launched bias vector viewed as one row. -/
theorem V_v2 (c : Dev nD) : (V m c main_v2 : S1x50257.Idx → Elt Ideal .f32)
    = (shapeCast S1x50257 (m ((c : Thread nD τ).loc main_arg3) : S50257.Idx → Elt Ideal .f32) shapeCasts_S50257_S1x50257 : S1x50257.Idx → Elt Ideal .f32) := by
  dsimp only [Gen.V, Gen.hostOps0]; after_results; try rfl

/-! ## The specification and its blocks -/

/-- The logits of the launched arrays: what the result array is shown to hold. -/
def G (c : Dev nD) : S1x2048x50257.Idx → Elt Ideal .f32 :=
  Cert.Spec.logits (m ((c : Thread nD τ).loc main_arg0)) (m ((c : Thread nD τ).loc main_arg1))
    (m ((c : Thread nD τ).loc main_arg2)) (m ((c : Thread nD τ).loc main_arg3))

/-- The part inside the array of the result's block at point `t`, read off the logits. -/
def gblk (c : Dev nD) (t : Fin cfg0.N) : ((cfg0.win 4).xblock (cfg0.grid.coords t)).Idx → Elt Ideal .f32 :=
  ((cfg0.win 4).blk t).view.read (Elt Ideal) (G m c)

/-- What a clipped input's buffer holds after its fetch at point `t`: the array's block on the part inside the
    array, `d` elsewhere. -/
def fetched1 (c : Dev nD) (t : Fin cfg0.N) (d : S2048x1280.Idx → Elt Ideal .i32) : S2048x1280.Idx → Elt Ideal .i32 :=
  (cfg0.win 1).fill (cfg0.grid.coords t) d (iblk m c 1 t)
def fetched2 (c : Dev nD) (t : Fin cfg0.N) (d : S1x1280.Idx → Elt Ideal .f32) : S1x1280.Idx → Elt Ideal .f32 :=
  (cfg0.win 2).fill (cfg0.grid.coords t) d (iblk m c 2 t)
def fetched3 (c : Dev nD) (t : Fin cfg0.N) (d : S1x1280.Idx → Elt Ideal .f32) : S1x1280.Idx → Elt Ideal .f32 :=
  (cfg0.win 3).fill (cfg0.grid.coords t) d (iblk m c 3 t)

/-! ## Each block at an entry -/

/-- Entry (0, r, k) of the hidden block at point `t`. -/
theorem iblk0_apply (c : Dev nD) (t : Fin cfg0.N) (r : Fin 256) (k : Fin 2048) :
    iblk m c 0 t (ix3 (0 : Fin 1) r k)
      = m ((c : Thread nD τ).loc main_arg0) (ix3 (0 : Fin 1) (⟨256 * (t.val % 8) + r.val, by have := r.isLt; omega⟩ : Fin 2048) k) := by
  have hv : iblk m c 0 t (ix3 (0 : Fin 1) r k) = V m c main_v0 (((cfg0.win 0).blk t).view.emb (ix3 (0 : Fin 1) r k)) := rfl
  rw [hv, V_v0, truncf_apply]
  refine congrArg _ (funext fun a => Fin.ext ?_)
  obtain ⟨e0, e1, e2⟩ := blk0_index t
  show ((win0_0.rect t).emb (ix3 (0 : Fin 1) r k) a : Nat) = _
  rw [Pipeline.Window.rect_emb_val]
  match a with
  | ⟨0, _⟩ => show win0_0.index t (0 : Fin 3) * 1 + 0 = 0; rw [e0]
  | ⟨1, _⟩ => show win0_0.index t (1 : Fin 3) * 256 + r.val = 256 * (t.val % 8) + r.val; rw [e1]; omega
  | ⟨2, _⟩ => show win0_0.index t (2 : Fin 3) * 2048 + k.val = k.val; rw [e2]; omega

/-- Entry (k, j) of the weight buffer after its fetch at point `t`, for a column `j` inside the array. -/
theorem fetched1_apply (c : Dev nD) (t : Fin cfg0.N) (d : S2048x1280.Idx → Elt Ideal .i32) (k : Fin 2048) (j : Fin 1280)
    (hj : 1280 * (t.val / 8) + j.val < 50257) :
    fetched1 m c t d (ix2 k j) = m ((c : Thread nD τ).loc main_arg1) (ix2 k (⟨1280 * (t.val / 8) + j.val, hj⟩ : Fin 50257)) := by
  obtain ⟨x0, x1⟩ := blk1_xsize t
  obtain ⟨e0, e1⟩ := blk1_index t
  have hm : (cfg0.win 1).moved (cfg0.grid.coords t) (ix2 k j) = true := by
    rw [Pipeline.Window.moved_iff]; intro a
    match a with
    | ⟨0, _⟩ => show k.val < win0_1.xsize (grid0.coords t) (0 : Fin 2); rw [x0]; exact k.isLt
    | ⟨1, _⟩ => show j.val < win0_1.xsize (grid0.coords t) (1 : Fin 2); rw [x1]; have := j.isLt; omega
  unfold fetched1 Pipeline.Window.fill
  rw [dif_pos hm]
  have hv : ∀ y, iblk m c 1 t y = V m c main_arg1 (((cfg0.win 1).blk t).view.emb y) := fun _ => rfl
  rw [hv, V_main_arg1]
  refine congrArg _ (funext fun a => Fin.ext ?_)
  show ((win0_1.rect t).emb _ a : Nat) = _
  rw [Pipeline.Window.rect_emb_val]
  match a with
  | ⟨0, _⟩ => show win0_1.index t (0 : Fin 2) * 2048 + k.val = k.val; rw [e0]; omega
  | ⟨1, _⟩ => show win0_1.index t (1 : Fin 2) * 1280 + j.val = 1280 * (t.val / 8) + j.val; rw [e1]; omega

/-- Entry (0, j) of the scale buffer after its fetch at point `t`, for a column `j` inside the array. -/
theorem fetched2_apply (c : Dev nD) (t : Fin cfg0.N) (d : S1x1280.Idx → Elt Ideal .f32) (j : Fin 1280)
    (hj : 1280 * (t.val / 8) + j.val < 50257) :
    fetched2 m c t d (ix2 (0 : Fin 1) j) = m ((c : Thread nD τ).loc main_arg2) (ix1 (⟨1280 * (t.val / 8) + j.val, hj⟩ : Fin 50257)) := by
  obtain ⟨x0, x1⟩ := blk2_xsize t
  obtain ⟨e0, e1⟩ := blk2_index t
  have hm : (cfg0.win 2).moved (cfg0.grid.coords t) (ix2 (0 : Fin 1) j) = true := by
    rw [Pipeline.Window.moved_iff]; intro a
    match a with
    | ⟨0, _⟩ => show 0 < win0_2.xsize (grid0.coords t) (0 : Fin 2); rw [x0]; omega
    | ⟨1, _⟩ => show j.val < win0_2.xsize (grid0.coords t) (1 : Fin 2); rw [x1]; have := j.isLt; omega
  unfold fetched2 Pipeline.Window.fill
  rw [dif_pos hm]
  have hv : ∀ y, iblk m c 2 t y = V m c main_v1 (((cfg0.win 2).blk t).view.emb y) := fun _ => rfl
  rw [hv, V_v1]
  have he : ((cfg0.win 2).blk t).view.emb (fun a => (⟨(ix2 (0 : Fin 1) j a).val, (Pipeline.Window.moved_iff _ _ _).mp hm a⟩ : Fin _))
      = ix2 (0 : Fin 1) (⟨1280 * (t.val / 8) + j.val, hj⟩ : Fin 50257) := by
    refine funext fun a => Fin.ext ?_
    show ((win0_2.rect t).emb _ a : Nat) = _
    rw [Pipeline.Window.rect_emb_val]
    match a with
    | ⟨0, _⟩ => show win0_2.index t (0 : Fin 2) * 1 + 0 = 0; rw [e0]
    | ⟨1, _⟩ => show win0_2.index t (1 : Fin 2) * 1280 + j.val = 1280 * (t.val / 8) + j.val; rw [e1]; omega
  rw [he, shapeCast_a_1a_apply]

/-- Entry (0, j) of the bias buffer after its fetch at point `t`, for a column `j` inside the array. -/
theorem fetched3_apply (c : Dev nD) (t : Fin cfg0.N) (d : S1x1280.Idx → Elt Ideal .f32) (j : Fin 1280)
    (hj : 1280 * (t.val / 8) + j.val < 50257) :
    fetched3 m c t d (ix2 (0 : Fin 1) j) = m ((c : Thread nD τ).loc main_arg3) (ix1 (⟨1280 * (t.val / 8) + j.val, hj⟩ : Fin 50257)) := by
  obtain ⟨x0, x1⟩ := blk3_xsize t
  obtain ⟨e0, e1⟩ := blk3_index t
  have hm : (cfg0.win 3).moved (cfg0.grid.coords t) (ix2 (0 : Fin 1) j) = true := by
    rw [Pipeline.Window.moved_iff]; intro a
    match a with
    | ⟨0, _⟩ => show 0 < win0_3.xsize (grid0.coords t) (0 : Fin 2); rw [x0]; omega
    | ⟨1, _⟩ => show j.val < win0_3.xsize (grid0.coords t) (1 : Fin 2); rw [x1]; have := j.isLt; omega
  unfold fetched3 Pipeline.Window.fill
  rw [dif_pos hm]
  have hv : ∀ y, iblk m c 3 t y = V m c main_v2 (((cfg0.win 3).blk t).view.emb y) := fun _ => rfl
  rw [hv, V_v2]
  have he : ((cfg0.win 3).blk t).view.emb (fun a => (⟨(ix2 (0 : Fin 1) j a).val, (Pipeline.Window.moved_iff _ _ _).mp hm a⟩ : Fin _))
      = ix2 (0 : Fin 1) (⟨1280 * (t.val / 8) + j.val, hj⟩ : Fin 50257) := by
    refine funext fun a => Fin.ext ?_
    show ((win0_3.rect t).emb _ a : Nat) = _
    rw [Pipeline.Window.rect_emb_val]
    match a with
    | ⟨0, _⟩ => show win0_3.index t (0 : Fin 2) * 1 + 0 = 0; rw [e0]
    | ⟨1, _⟩ => show win0_3.index t (1 : Fin 2) * 1280 + j.val = 1280 * (t.val / 8) + j.val; rw [e1]; omega
  rw [he, shapeCast_a_1a_apply]

/-- The conversion of an integer word, at the ideal values, is the integer it denotes. -/
theorem deq_apply (X : Vec Ideal S2048x1280 .i32) (i : S2048x1280.Idx) : deq (F := Ideal) X i = Cert.Spec.wt (X i) := rfl

/-- An entry of the logits' block at point `t`. -/
theorem gblk_apply (c : Dev nD) (t : Fin cfg0.N) (y : ((cfg0.win 4).xblock (cfg0.grid.coords t)).Idx)
    (h1 : 256 * (t.val % 8) + (y (1 : Fin 3)).val < 2048) (h2 : 1280 * (t.val / 8) + (y (2 : Fin 3)).val < 50257) :
    gblk m c t y = G m c (ix3 (0 : Fin 1) (⟨256 * (t.val % 8) + (y (1 : Fin 3)).val, h1⟩ : Fin 2048) (⟨1280 * (t.val / 8) + (y (2 : Fin 3)).val, h2⟩ : Fin 50257)) := by
  obtain ⟨e0, e1, e2⟩ := blk4_index t
  obtain ⟨x0, x1, x2⟩ := blk4_xsize t
  have h0 : (y (0 : Fin 3)).val < win0_4.xsize (grid0.coords t) (0 : Fin 3) := (y (0 : Fin 3)).isLt
  rw [x0] at h0
  have hv : gblk m c t y = G m c (((cfg0.win 4).blk t).view.emb y) := rfl
  rw [hv]
  refine congrArg _ (funext fun a => Fin.ext ?_)
  show ((win0_4.rect t).emb y a : Nat) = _
  rw [Pipeline.Window.rect_emb_val]
  match a with
  | ⟨0, _⟩ => show win0_4.index t (0 : Fin 3) * 1 + (y (0 : Fin 3)).val = 0; rw [e0]; omega
  | ⟨1, _⟩ => show win0_4.index t (1 : Fin 3) * 256 + (y (1 : Fin 3)).val = 256 * (t.val % 8) + (y (1 : Fin 3)).val; rw [e1]; omega
  | ⟨2, _⟩ => show win0_4.index t (2 : Fin 3) * 1280 + (y (2 : Fin 3)).val = 1280 * (t.val / 8) + (y (2 : Fin 3)).val; rw [e2]; omega

/-! ## The body's result, cut to the part inside the array, is the logits' block -/

/-- Whatever the staging buffers hold past the arrays' end (`d1`, `d2`, `d3`), the part of the body's result that is
    written back is the logits' block: an entry of the result depends on its own column of the weights, scale and
    bias only, and every column written back lies inside the arrays. -/
theorem cut_out (c : Dev nD) (t : Fin cfg0.N) (d1 : S2048x1280.Idx → Elt Ideal .i32) (d2 d3 : S1x1280.Idx → Elt Ideal .f32) :
    (cfg0.win 4).cut (cfg0.grid.coords t)
        (outOf (F := Ideal) (iblk m c 0 t) (deq (fetched1 m c t d1)) (fetched2 m c t d2) (fetched3 m c t d3))
      = gblk m c t := by
  funext y
  obtain ⟨x0, x1, x2⟩ := blk4_xsize t
  have h0 : (y (0 : Fin 3)).val < win0_4.xsize (grid0.coords t) (0 : Fin 3) := (y (0 : Fin 3)).isLt
  have h1 : (y (1 : Fin 3)).val < win0_4.xsize (grid0.coords t) (1 : Fin 3) := (y (1 : Fin 3)).isLt
  have h2 : (y (2 : Fin 3)).val < win0_4.xsize (grid0.coords t) (2 : Fin 3) := (y (2 : Fin 3)).isLt
  rw [x0] at h0; rw [x1] at h1; rw [x2] at h2
  have hN : t.val < 320 := lt_of_lt_of_eq t.isLt N_0
  have hr : 256 * (t.val % 8) + (y (1 : Fin 3)).val < 2048 := by omega
  have hj : 1280 * (t.val / 8) + (y (2 : Fin 3)).val < 50257 := by omega
  have hx : (cfg0.win 4).xinj (cfg0.grid.coords t) y
      = ix3 (0 : Fin 1) (⟨(y (1 : Fin 3)).val, h1⟩ : Fin 256) (⟨(y (2 : Fin 3)).val, by omega⟩ : Fin 1280) := by
    refine funext fun a => Fin.ext ?_
    match a with
    | ⟨0, _⟩ => show (y (0 : Fin 3)).val = 0; omega
    | ⟨1, _⟩ => rfl
    | ⟨2, _⟩ => rfl
  show outOf (F := Ideal) _ _ _ _ ((cfg0.win 4).xinj (cfg0.grid.coords t) y) = _
  rw [hx, outOf_apply, gblk_apply m c t y hr hj]
  have e0 : ∀ k : Fin 2048, iblk m c 0 t (ix3 (0 : Fin 1) (⟨(y (1 : Fin 3)).val, h1⟩ : Fin 256) k)
      = m ((c : Thread nD τ).loc main_arg0) (ix3 (0 : Fin 1) (⟨256 * (t.val % 8) + (y (1 : Fin 3)).val, hr⟩ : Fin 2048) k) :=
    fun k => iblk0_apply m c t ⟨(y (1 : Fin 3)).val, h1⟩ k
  have e1 : ∀ k : Fin 2048, deq (F := Ideal) (fetched1 m c t d1) (ix2 k (⟨(y (2 : Fin 3)).val, by omega⟩ : Fin 1280))
      = Cert.Spec.wt (m ((c : Thread nD τ).loc main_arg1) (ix2 k (⟨1280 * (t.val / 8) + (y (2 : Fin 3)).val, hj⟩ : Fin 50257))) :=
    fun k => (deq_apply _ _).trans (congrArg Cert.Spec.wt (fetched1_apply m c t d1 k ⟨(y (2 : Fin 3)).val, by omega⟩ hj))
  have e2 := fetched2_apply m c t d2 (⟨(y (2 : Fin 3)).val, by omega⟩ : Fin 1280) hj
  have e3 := fetched3_apply m c t d3 (⟨(y (2 : Fin 3)).val, by omega⟩ : Fin 1280) hj
  exact congrArg₂ (· + ·) (congrArg₂ (· * ·) (Finset.sum_congr rfl fun k _ => congrArg₂ (· * ·) (e0 k) (e1 k)) e2) e3

end Cert.KernelIdeal.Body

end
-- ==== Proof.IdealFrame.lean ====
/-
  The idealized program's run, with values: after any run of @main the result array holds the logits of the
  launched arrays, and the four argument arrays hold what they held.

  The proof data name what each staging buffer holds after the body at each grid point: the hidden block;
  the weight, scale and bias blocks on the part inside their arrays; and, for the result's window, the block of
  the logits on the part inside the array — the only part written back. Past the arrays' end (the last column
  tile has 337 of its 1280 columns inside) the buffers hold words nothing names, and the body's result there is
  not named either: an entry of the result depends on its own column of the weights, scale and bias only, so the
  part written back does not depend on those words.

  Between grid points the body carries the cache of converted weights. The invariant says what it holds after
  point t: the conversion of what the weight window's buffer holds after its fetch for t's column tile (the block
  inside the array, some words elsewhere). A point with inner coordinate zero establishes it (it converts the
  buffer it was just handed); a later point of the same column tile keeps it, because the weight window is not
  fetched there: its block index has not moved, so a fetch there would fill the buffer alike. The accumulator is
  cleared by every point before it is read, so the invariant keeps it at anything.

  The result's blocks cover the result array and each is the logits' block, so the array ends at the logits.
-/
import proofs.«139742_j68461778698498_2_alg».proof.Proof.IdealBlocks
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.KernelIdeal.Body

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-! ## The cache invariant -/

/-- The scratch operands: whole scoped buffers of the kernel's own, passed beside the windows. -/
abbrev scM0 : Memref sig .tc .vmem S256x1280 .f32 := Memref.whole cc0_scratch0
abbrev scM1 : Memref sig .tc .vmem S2048x1280 .bf16 := Memref.whole cc0_scratch1

/-- The class invariant with the two scratch operands as memrefs owned at some contents. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- The cache holds the conversion of what the weight window's buffer holds after its fetch at point `t`. -/
def CacheOK (c : Dev nD) (t : Fin cfg0.N) (Y : S2048x1280.Idx → Elt Ideal .bf16) : Prop :=
  ∃ d, Y = deq (F := Ideal) (fetched1 m c t d)

/-- The region invariant before position `n`: before the first point the class's (both scratch buffers at anything);
    afterwards the accumulator at anything, the cache at the conversion for the point before, and the generator
    register at some state. -/
def PhiS (c : Dev nD) : (n : ℕ) → n ≤ cfg0.N → sProp 𝕄
  | 0, _ => Pipeline.ΦA spec0 c
  | n + 1, hn => iprop(iprop((∃ d, owns (c : Thread nD τ) scM0 fullShare d)
      ∗ (∃ Y, ⌜CacheOK m c ⟨n, hn⟩ Y⌝ ∗ owns (c : Thread nD τ) scM1 fullShare Y)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop((∃ d, owns (c : Thread nD τ) scM0 fullShare d)
      ∗ (∃ Y, ⌜CacheOK m c ⟨n, hn⟩ Y⌝ ∗ owns (c : Thread nD τ) scM1 fullShare Y)) ∗ (∃ r, prngReg c r)) := rfl

theorem PhiS_pos (c : Dev nD) (n : ℕ) (h : n ≤ cfg0.N) (hz : n ≠ 0) :
    PhiS m c n h = iprop(iprop((∃ d, owns (c : Thread nD τ) scM0 fullShare d)
      ∗ (∃ Y, ⌜CacheOK m c ⟨n - 1, by omega⟩ Y⌝ ∗ owns (c : Thread nD τ) scM1 fullShare Y)) ∗ (∃ r, prngReg c r)) := by
  cases n with
  | zero => exact absurd rfl hz
  | succ n => rfl

/-- At any position the invariant yields both scratch buffers at some contents. -/
theorem PhiS_any (c : Dev nD) (n : ℕ) (h : n ≤ cfg0.N) :
    PhiS m c n h ⊢ iprop(iprop((∃ d, owns (c : Thread nD τ) scM0 fullShare d) ∗ (∃ d, owns (c : Thread nD τ) scM1 fullShare d)) ∗ (∃ r, prngReg c r)) := by
  cases n with
  | zero => rw [PhiS_zero m c 0 h rfl, PhiA_eq]
  | succ n =>
    rw [PhiS_succ]
    iintro ⟨⟨HS0, ⟨%Y, %hY, HS1⟩⟩, Hg⟩
    isplitl [HS0 HS1]
    · isplitl [HS0]; · iexact HS0
      iexists _; iexact HS1
    iexact Hg

/-! ## The proof data -/

/-- The proof data of the one pipeline on core `c`: the arrays as the region finds them; after the body at point
    `t` the hidden window's buffer at its block, each clipped input's at its block on the part inside the array, the
    result's at the logits' block on the part inside the array (each filled out past the array's end with a word
    nothing reads); the invariant the cache's; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => (cfg0.win 1).fill (cfg0.grid.coords t) (fun _ => Classical.arbitrary _) (iblk m c 1 t)
    | ⟨2, _⟩ => (cfg0.win 2).fill (cfg0.grid.coords t) (fun _ => Classical.arbitrary _) (iblk m c 2 t)
    | ⟨3, _⟩ => (cfg0.win 3).fill (cfg0.grid.coords t) (fun _ => Classical.arbitrary _) (iblk m c 3 t)
    | ⟨4, _⟩ => (cfg0.win 4).fill (cfg0.grid.coords t) (fun _ => Classical.arbitrary _) (gblk m c t)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) :
    (dats m 0 c).after 1 t = (cfg0.win 1).fill (cfg0.grid.coords t) (fun _ => Classical.arbitrary _) (iblk m c 1 t) := by dsimp only [dats]
theorem after_2 (c : Dev nD) (t : Fin cfg0.N) :
    (dats m 0 c).after 2 t = (cfg0.win 2).fill (cfg0.grid.coords t) (fun _ => Classical.arbitrary _) (iblk m c 2 t) := by dsimp only [dats]
theorem after_3 (c : Dev nD) (t : Fin cfg0.N) :
    (dats m 0 c).after 3 t = (cfg0.win 3).fill (cfg0.grid.coords t) (fun _ => Classical.arbitrary _) (iblk m c 3 t) := by dsimp only [dats]
theorem after_4 (c : Dev nD) (t : Fin cfg0.N) :
    (dats m 0 c).after 4 t = (cfg0.win 4).fill (cfg0.grid.coords t) (fun _ => Classical.arbitrary _) (gblk m c t) := by dsimp only [dats]

/-- What the obligation states of each clipped window: the part inside the array of what the body leaves. -/
theorem cut_after_1 (c : Dev nD) (t : Fin cfg0.N) : (cfg0.win 1).cut (cfg0.grid.coords t) ((dats m 0 c).after 1 t) = iblk m c 1 t := by
  rw [after_1, Window.cut_fill]
theorem cut_after_2 (c : Dev nD) (t : Fin cfg0.N) : (cfg0.win 2).cut (cfg0.grid.coords t) ((dats m 0 c).after 2 t) = iblk m c 2 t := by
  rw [after_2, Window.cut_fill]
theorem cut_after_3 (c : Dev nD) (t : Fin cfg0.N) : (cfg0.win 3).cut (cfg0.grid.coords t) ((dats m 0 c).after 3 t) = iblk m c 3 t := by
  rw [after_3, Window.cut_fill]
theorem cut_after_4 (c : Dev nD) (t : Fin cfg0.N) : (cfg0.win 4).cut (cfg0.grid.coords t) ((dats m 0 c).after 4 t) = gblk m c t := by
  rw [after_4, Window.cut_fill]

/-! ## What the body finds in the input windows' buffers -/

theorem before_0 (c : Dev nD) (t : Fin cfg0.N) (d) : (dats m 0 c).before 0 t d = iblk m c 0 t :=
  before0_0_of m (dats m 0 c) (A_eq m c 0) (after_0 m c) t d

/-- A clipped window's cuts are a function of its block index: they are computed from it axis by axis. -/
theorem hclip_1 (t t' : Fin cfg0.N) (h : (cfg0.win 1).index t = (cfg0.win 1).index t') :
    (cfg0.win 1).clip (cfg0.grid.coords t) = (cfg0.win 1).clip (cfg0.grid.coords t') := by
  funext a
  show Pipeline.Clip.of (cc0_transform_1 (grid0.coords t) a) _ _ = Pipeline.Clip.of (cc0_transform_1 (grid0.coords t') a) _ _
  rw [show cc0_transform_1 (grid0.coords t) = cc0_transform_1 (grid0.coords t') from h]
theorem hclip_2 (t t' : Fin cfg0.N) (h : (cfg0.win 2).index t = (cfg0.win 2).index t') :
    (cfg0.win 2).clip (cfg0.grid.coords t) = (cfg0.win 2).clip (cfg0.grid.coords t') := by
  funext a
  show Pipeline.Clip.of (cc0_transform_2 (grid0.coords t) a) _ _ = Pipeline.Clip.of (cc0_transform_2 (grid0.coords t') a) _ _
  rw [show cc0_transform_2 (grid0.coords t) = cc0_transform_2 (grid0.coords t') from h]
theorem hclip_3 (t t' : Fin cfg0.N) (h : (cfg0.win 3).index t = (cfg0.win 3).index t') :
    (cfg0.win 3).clip (cfg0.grid.coords t) = (cfg0.win 3).clip (cfg0.grid.coords t') := by
  funext a
  show Pipeline.Clip.of (cc0_transform_3 (grid0.coords t) a) _ _ = Pipeline.Clip.of (cc0_transform_3 (grid0.coords t') a) _ _
  rw [show cc0_transform_3 (grid0.coords t) = cc0_transform_3 (grid0.coords t') from h]

theorem hkeep_1 (c : Dev nD) (t : Fin cfg0.N) :
    (cfg0.win 1).cut (cfg0.grid.coords t) ((dats m 0 c).after 1 t) = (dats m 0 c).blockOf 1 t := by
  rw [cut_after_1]; unfold Dat.blockOf iblk; rw [A_eq]
theorem hkeep_2 (c : Dev nD) (t : Fin cfg0.N) :
    (cfg0.win 2).cut (cfg0.grid.coords t) ((dats m 0 c).after 2 t) = (dats m 0 c).blockOf 2 t := by
  rw [cut_after_2]; unfold Dat.blockOf iblk; rw [A_eq]
theorem hkeep_3 (c : Dev nD) (t : Fin cfg0.N) :
    (cfg0.win 3).cut (cfg0.grid.coords t) ((dats m 0 c).after 3 t) = (dats m 0 c).blockOf 3 t := by
  rw [cut_after_3]; unfold Dat.blockOf iblk; rw [A_eq]

/-- A clipped input's buffer holds, at every point, fetched there or not, its block on the part inside the array
    and whatever it held elsewhere. -/
theorem before_1 (c : Dev nD) (t : Fin cfg0.N) (d) : (dats m 0 c).before 1 t d = fetched1 m c t d :=
  ((dats m 0 c).before_in_eq_fetched 1 rfl (fun _ => rfl) hclip_1 (hkeep_1 m c) t d).trans (by
    unfold Dat.fetched fetched1; rw [← hkeep_1, cut_after_1])
theorem before_2 (c : Dev nD) (t : Fin cfg0.N) (d) : (dats m 0 c).before 2 t d = fetched2 m c t d :=
  ((dats m 0 c).before_in_eq_fetched 2 rfl (fun _ => rfl) hclip_2 (hkeep_2 m c) t d).trans (by
    unfold Dat.fetched fetched2; rw [← hkeep_2, cut_after_2])
theorem before_3 (c : Dev nD) (t : Fin cfg0.N) (d) : (dats m 0 c).before 3 t d = fetched3 m c t d :=
  ((dats m 0 c).before_in_eq_fetched 3 rfl (fun _ => rfl) hclip_3 (hkeep_3 m c) t d).trans (by
    unfold Dat.fetched fetched3; rw [← hkeep_3, cut_after_3])

/-- The weight window's fetch fills the buffer alike at two points with one block index. -/
theorem fetched1_congr (c : Dev nD) {t t' : Fin cfg0.N} (h : (cfg0.win 1).index t = (cfg0.win 1).index t') (d) :
    fetched1 m c t d = fetched1 m c t' d := by
  have e := (dats m 0 c).fetched_congr 1 h (hclip_1 t t' h) d
  unfold Dat.fetched at e
  rw [← hkeep_1, ← hkeep_1, cut_after_1, cut_after_1] at e
  exact e

/-- The body's branch is taken exactly at the points with inner coordinate zero. -/
theorem hcond : ∀ t : Fin cfg0.N, k0_cond1 (grid0.coords t) = 1#1 ↔ t.val % 8 = 0 :=
  (by decide +kernel : ∀ t : Fin grid0.N, k0_cond1 (grid0.coords t) = 1#1 ↔ t.val % 8 = 0)

/-- At a point with inner coordinate not zero the cache invariant of the point before is the point's own: the
    weight window is not fetched there, so its block index has not moved. -/
theorem cache_step (c : Dev nD) (t : Fin cfg0.N) (ht : ¬ t.val % 8 = 0) (Y : S2048x1280.Idx → Elt Ideal .bf16)
    (h : CacheOK m c ⟨t.val - 1, Nat.lt_of_le_of_lt (Nat.sub_le _ _) t.isLt⟩ Y) : CacheOK m c t Y := by
  obtain ⟨d, rfl⟩ := h
  refine ⟨d, ?_⟩
  have hf : (cfg0.win 1).fetch t = false := by
    cases hb : (cfg0.win 1).fetch t with
    | false => rfl
    | true => exact absurd ((fetch0_1 t).mp hb) ht
  obtain ⟨_, hix⟩ := (cfg0.win 1).index_eq_of_fetch rfl t hf
  rw [fetched1_congr m c hix.symm d]

/-! ## The body obligation -/

/-- Each window's current staging memref at point `t`, spelled as the pipeline passes it to the body. -/
abbrev ms0 (t : Fin cfg0.N) : Memref sig .tc .vmem S1x256x2048 .bf16 := win0_0.stage (cfg0.slots t 0)
abbrev ms1 (t : Fin cfg0.N) : Memref sig .tc .vmem S2048x1280 .i32 := win0_1.stage (cfg0.slots t 1)
abbrev ms2 (t : Fin cfg0.N) : Memref sig .tc .vmem S1x1280 .f32 := win0_2.stage (cfg0.slots t 2)
abbrev ms3 (t : Fin cfg0.N) : Memref sig .tc .vmem S1x1280 .f32 := win0_3.stage (cfg0.slots t 3)
abbrev ms4 (t : Fin cfg0.N) : Memref sig .tc .vmem S1x256x1280 .f32 := win0_4.stage (cfg0.slots t 4)

/-- What the body is called with at point `t`: the invariant, what the core owes, each window's buffer at what it
    then holds; -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns: the hidden window's buffer at its block, each clipped window's stated on the part inside
    the array. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ (∃ d, owns (c : Thread nD τ) (ms1 t) fullShare ((cfg0.win 1).fill (cfg0.grid.coords t) d ((cfg0.win 1).cut (cfg0.grid.coords t) ((dats m 0 c).after 1 t))))
    ∗ (∃ d, owns (c : Thread nD τ) (ms2 t) fullShare ((cfg0.win 2).fill (cfg0.grid.coords t) d ((cfg0.win 2).cut (cfg0.grid.coords t) ((dats m 0 c).after 2 t))))
    ∗ (∃ d, owns (c : Thread nD τ) (ms3 t) fullShare ((cfg0.win 3).fill (cfg0.grid.coords t) d ((cfg0.win 3).cut (cfg0.grid.coords t) ((dats m 0 c).after 3 t))))
    ∗ (∃ d, owns (c : Thread nD τ) (ms4 t) fullShare ((cfg0.win 4).fill (cfg0.grid.coords t) d ((cfg0.win 4).cut (cfg0.grid.coords t) ((dats m 0 c).after 4 t)))))

/-- Contents whose part inside the array is the logits' block are, filled with their own tail, themselves. -/
theorem fill_self (c : Dev nD) (t : Fin cfg0.N) (X : S1x256x1280.Idx → Elt Ideal .f32)
    (h : (cfg0.win 4).cut (cfg0.grid.coords t) X = gblk m c t) :
    (cfg0.win 4).fill (cfg0.grid.coords t) X (gblk m c t) = X := by
  rw [← h]; exact Window.fill_cut _ _ _

set_option maxHeartbeats 4000000 in
/-- The body at any point. The inputs' buffers hold their blocks (on the part inside the array). At inner
    coordinate zero the body converts the weight buffer into the cache — which establishes the cache invariant for
    this point — and multiplies with that; elsewhere the cache invariant of the point before is this point's (the
    weight window has not moved) and the body multiplies with the cache as found. Either way the result's buffer
    ends, on the part inside the array, at the logits' block. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3]
  rw [after_0, cut_after_1, cut_after_2, cut_after_3, cut_after_4]
  rw [show (dats m 0 c).owesAt () t.succ = (dats m 0 c).owesAt () t.castSucc from rfl]
  rw [show (dats m 0 c).Φ t.succ = PhiS m c (t.val + 1) t.isLt from rfl, PhiS_succ, PhiS_castSucc]
  by_cases hc : k0_cond1 (grid0.coords t) = 1#1
  · refine (sep_mono (PhiS_any m c t.val _) .rfl).trans ?_
    iintro ⟨⟨⟨HS0, HS1⟩, Hg⟩, Ho, ⟨%d0, H0⟩, ⟨%d1, H1⟩, ⟨%d2, H2⟩, ⟨%d3, H3⟩, ⟨%d4, H4⟩⟩
    iapply ((runFirst c (grid0.coords t) _ _ _ _ _ _ _ _ _ _ _ _ _ _ hc (iblk m c 0 t) (fetched1 m c t d1) (fetched2 m c t d2) (fetched3 m c t d3)).2.2.2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iintro ⟨H0, H1, H2, H3, ⟨%f4, H4⟩, ⟨%fs0, HS0⟩, ⟨%fs1, HS1⟩⟩
    isplitl [HS0 HS1 Hg]
    · isplitl [HS0 HS1]
      · isplitl [HS0]
        · iexists _; iapply (owns_intro _ _ _ _); iexact HS0
        · iexists (deq (F := Ideal) (fetched1 m c t d1)); isplitr
          · ipureintro; exact ⟨d1, rfl⟩
          · unfold owns; iexists _; isplitr
            swap; · iexact HS1
            ipureintro
            exact (View.read_writes_eq_canon _ _ _ (cover_cache_first c _ _ _ _ _ _ _ _ _ _ _ _ _ _ _ hc _ _ _ _)).trans
              (cache_first c _ _ _ _ _ _ _ _ _ _ _ _ _ _ _ hc _ _ _ _)
      iexact Hg
    isplitl [Ho]; · iexact Ho
    isplitl [H0]; · iexact H0
    isplitl [H1]; · iexists d1; iexact H1
    isplitl [H2]; · iexists d2; iexact H2
    isplitl [H3]; · iexists d3; iexact H3
    iexists (outOf (F := Ideal) (iblk m c 0 t) (deq (F := Ideal) (fetched1 m c t d1)) (fetched2 m c t d2) (fetched3 m c t d3))
    rw [fill_self m c t _ (cut_out m c t d1 d2 d3)]
    unfold owns; iexists _; isplitr
    swap; · iexact H4
    ipureintro
    exact (View.read_writes_eq_canon _ _ _ (cover_out_first c _ _ _ _ _ _ _ _ _ _ _ _ _ _ _ hc _ _ _ _)).trans
      (out_first c _ _ _ _ _ _ _ _ _ _ _ _ _ _ _ hc _ _ _ _)
  · have ht : ¬ t.val % 8 = 0 := fun h => hc ((hcond t).mpr h)
    have hz : t.val ≠ 0 := fun h => ht (by rw [h])
    rw [PhiS_pos m c _ _ hz]
    iintro ⟨⟨⟨HS0, ⟨%Y, %hY, HS1⟩⟩, Hg⟩, Ho, ⟨%d0, H0⟩, ⟨%d1, H1⟩, ⟨%d2, H2⟩, ⟨%d3, H3⟩, ⟨%d4, H4⟩⟩
    obtain ⟨dY, rfl⟩ := cache_step m c t ht Y hY
    iapply ((runLater c (grid0.coords t) _ _ _ _ _ _ _ _ _ _ _ _ _ _ hc (iblk m c 0 t) (fetched1 m c t d1) (fetched2 m c t d2) (fetched3 m c t d3)
      (deq (F := Ideal) (fetched1 m c t dY))).2.2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iintro ⟨H0, H1, H2, H3, ⟨%f4, H4⟩, ⟨%fs0, HS0⟩, HS1⟩
    isplitl [HS0 HS1 Hg]
    · isplitl [HS0 HS1]
      · isplitl [HS0]
        · iexists _; iapply (owns_intro _ _ _ _); iexact HS0
        · iexists (deq (F := Ideal) (fetched1 m c t dY)); isplitr
          · ipureintro; exact ⟨dY, rfl⟩
          · iexact HS1
      iexact Hg
    isplitl [Ho]; · iexact Ho
    isplitl [H0]; · iexact H0
    isplitl [H1]; · iexists d1; iexact H1
    isplitl [H2]; · iexists d2; iexact H2
    isplitl [H3]; · iexists d3; iexact H3
    iexists (outOf (F := Ideal) (iblk m c 0 t) (deq (F := Ideal) (fetched1 m c t dY)) (fetched2 m c t d2) (fetched3 m c t d3))
    rw [fill_self m c t _ (cut_out m c t dY d2 d3)]
    unfold owns; iexists _; isplitr
    swap; · iexact H4
    ipureintro
    exact (View.read_writes_eq_canon _ _ _ (cover_out_later c _ _ _ _ _ _ _ _ _ _ _ _ _ _ _ hc _ _ _ _ _)).trans
      (out_later c _ _ _ _ _ _ _ _ _ _ _ _ _ _ _ hc _ _ _ _ _)

/-- The library's body obligation, at every point. -/
theorem body_obligation (c : Dev nD) : BodyObligationLoose (dats m 0 c) (defs₀ (F := Ideal)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]

/-- After the last point the invariant gives the class's back: what the cache holds is forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA_eq]
  exact PhiS_any m c _ _

/-! ## The run and the values -/

set_option backward.isDefEq.respectTransparency.types false in
/-- At the compiled mesh, from any memory with zero counters: every weakly fair execution of @main on the
    TensorCores terminates, and every final state has every array of the pipeline at what the proof data compute
    and every other unscoped buffer as the region found it. -/
theorem run_main : θ_run defs (onTc (τ := τ) (main (F := Ideal))) (s₀ m ρ) (Pipeline.FramePost cfgs (dats m) 0 (V m)) :=
  Pipeline.θ_run_frame_track cfgs (dats m) (0 : Fin 1) launch0 defs₀ Variants.none m ρ main
    (hbody := fun c => body_obligation m c)
    (hshare := fun c => (dats m 0 c).share_full fun _ => rfl) (howed := fun _ _ => rfl)
    (V := V m) (hmain := hmain m Variants.none) (hA := fun c w => A_eq m c w) (hin := hin m) (hout := hout m)

/-- What each point writes back is the logits' block. -/
theorem flushed_eq (c : Dev nD) (t : Fin cfg0.N) :
    (dats m 0 c).flushed 4 t = ((cfg0.win 4).blk t).view.read (Elt Ideal) (G m c) :=
  cut_after_4 m c t

/-- The result array ends at the logits: each block written back is the logits' block, and the blocks cover it. -/
theorem final_out (c : Dev nD) : (dats m 0 c).arrAt 4 cfg0.N = G m c :=
  (dats m 0 c).arrAt_eq_of_cover 4 (G m c) (fun t _ => flushed_eq m c t) (cover_out c)

/-- THE RUN WITH VALUES: after any run of @main the result array holds the logits of the launched arrays and the
    four argument arrays hold what they held. -/
theorem value_run : θ_run defs (onTc (τ := τ) (main (F := Ideal))) ⟨m, fun _ => 0, ρ⟩ (fun r => ∀ c : Dev nD,
      r.2.mem ((c.tc : Thread nD τ).loc main_v3) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 4).trans (final_out m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (run_main m ρ)

end Cert.KernelIdeal.Body

end
-- ==== Proof.RefLogits.lean ====
/-
  The reference program computes the specification.

  Read one operation at a time, the reference's result at the index (0, t, v) is

      (Σ_{k < 2048} x0[0, t, k] · real(x1[k, v])) · x2[v] + x3[v]

  over the extended reals: the integer weights are converted exactly, the contraction is the exact sum, the scale
  and the bias are spread along the leading axes unchanged, and the product and the sum are the exact ones. That
  is the head's logits, term by term; only the spelling of the indices differs.
-/
import proofs.«139742_j68461778698498_2_alg».proof.Proof.Gen.ReferenceIdeal.Read
import proofs.«139742_j68461778698498_2_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- The left operand's index of the contraction is (0, t, k). -/
theorem lidx_eq (i : S1x2048x50257.Idx) (k : Fin 2048) :
    lidx_main_v1 i k = ix3 (0 : Fin 1) (⟨(i 1).val, (i 1).isLt⟩ : Fin 2048) k :=
  funext fun a => Fin.ext (by
    match a with
    | ⟨0, _⟩ => exact Nat.lt_one_iff.mp (i 0).isLt
    | ⟨1, _⟩ => rfl
    | ⟨2, _⟩ => rfl)

/-- The right operand's index of the contraction is (k, v). -/
theorem ridx_eq (i : S1x2048x50257.Idx) (k : Fin 2048) :
    ridx_main_v1 i k = ix2 k (⟨(i 2).val, (i 2).isLt⟩ : Fin 50257) :=
  funext fun a => Fin.ext (by
    match a with
    | ⟨0, _⟩ => rfl
    | ⟨1, _⟩ => rfl)

/-- The scale is read at the column v. -/
theorem sidx_eq (i : S1x2048x50257.Idx) :
    idx_main_v2 (idx_main_v3 i) = ix1 (⟨(i 2).val, (i 2).isLt⟩ : Fin 50257) :=
  funext fun a => Fin.ext (by
    match a with
    | ⟨0, _⟩ => rfl)

/-- The bias is read at the column v. -/
theorem bidx_eq (i : S1x2048x50257.Idx) :
    idx_main_v5 (idx_main_v6 i) = ix1 (⟨(i 2).val, (i 2).isLt⟩ : Fin 50257) :=
  funext fun a => Fin.ext (by
    match a with
    | ⟨0, _⟩ => rfl)

/-- The reference program's result is the head's logits. -/
theorem ref_is_logits (x0 : (⟨S1x2048x2048, .f32⟩ : BufTy).Contents (Elt Ideal))
    (x1 : (⟨S2048x50257, .i32⟩ : BufTy).Contents (Elt Ideal)) (x2 x3 : (⟨S50257, .f32⟩ : BufTy).Contents (Elt Ideal)) :
    Cert.ReferenceIdeal.Read.val_main_v7 (F := Ideal) x0 x1 x2 x3 = Cert.Spec.logits x0 x1 x2 x3 := by
  funext i
  rw [val_main_v7_apply, val_main_v4_apply, val_main_v1_apply, val_main_v3_apply, val_main_v2_apply,
    val_main_v6_apply, val_main_v5_apply, sidx_eq, bidx_eq]
  show (∑ k : Fin 2048, x0 (lidx_main_v1 i k) * val_main_v0 (F := Ideal) x1 (ridx_main_v1 i k))
        * x2 (ix1 (⟨(i 2).val, (i 2).isLt⟩ : Fin 50257)) + x3 (ix1 (⟨(i 2).val, (i 2).isLt⟩ : Fin 50257))
      = Cert.Spec.logits x0 x1 x2 x3 i
  have hsum : (∑ k : Fin 2048, x0 (lidx_main_v1 i k) * val_main_v0 (F := Ideal) x1 (ridx_main_v1 i k))
      = ∑ k : Fin 2048, x0 (ix3 (0 : Fin 1) (⟨(i 1).val, (i 1).isLt⟩ : Fin 2048) k)
          * Cert.Spec.wt (x1 (ix2 k (⟨(i 2).val, (i 2).isLt⟩ : Fin 50257))) :=
    Finset.sum_congr rfl fun k _ => by
      rw [lidx_eq, ridx_eq, val_main_v0_apply]
      rfl
  rw [hsum]
  rfl

end Cert.ReferenceIdeal.RefValue

end
-- ==== Proof.lean ====
/-
  The five claims of this certificate (Defs.lean): a linear head over integer-stored weights,

      logits[0, t, v] = (Σ_{d < 2048} h[0, t, d] · w[d, v]) · scale[v] + bias[v],

  computed by a tiled kernel (40 column tiles of 1280 columns, the last cut at column 50257, by 8 row tiles of 256
  rows; the weights of a column tile converted once into a cache and multiplied in four chunks of 512 along d) and
  by a reference that converts the whole weight matrix and takes one product.

  At the ideal values both are that formula. The reference: its product is the sum over d, the two broadcasts read
  the vectors' entry v (RefLogits). The kernel: at every grid point the part of the result's block inside the array
  is the formula's block — the four chunk sums regroup into the one sum because addition of extended reals is
  associative, a change of format is the identity, and an entry depends on its own column only, so the words the
  staging buffers hold past the arrays' end never reach a column that is written back (IdealOutValue, IdealBlocks,
  IdealFrame); the blocks written back cover the result (IdealCover). No finiteness of the inputs is used.

  The frames: the word-level program's from its run with the result's window forgotten (BitsFrame); the idealized
  program's from its run with values; the reference's from its run. The idealization rewrote nothing.
-/
import proofs.«139742_j68461778698498_2_alg».proof.Defs
import proofs.«139742_j68461778698498_2_alg».proof.Proof.Gen.Kernel
import proofs.«139742_j68461778698498_2_alg».proof.Proof.Gen.KernelIdeal
import proofs.«139742_j68461778698498_2_alg».proof.Proof.Gen.ReferenceIdeal
import proofs.«139742_j68461778698498_2_alg».proof.Proof.Gen.Pre_finite_inputs
import proofs.«139742_j68461778698498_2_alg».proof.Proof.Gen.ReferenceIdeal.Run
import proofs.«139742_j68461778698498_2_alg».proof.Proof.Gen.ReferenceIdeal.Read
import proofs.«139742_j68461778698498_2_alg».proof.Proof.BitsFrame
import proofs.«139742_j68461778698498_2_alg».proof.Proof.IdealFrame
import proofs.«139742_j68461778698498_2_alg».proof.Proof.RefLogits

set_option maxRecDepth 16384

noncomputable section

namespace Cert.Proof

open Idealize.ShloMosaic Idealize.SL.Sem

/-- The word-level program runs and leaves its arguments as they were. -/
theorem frame_k : Cert.frame_Kernel := fun m ρ _ => Cert.Kernel.Body.frame (F := Bits) m ρ

/-- The idealized program runs and leaves its arguments as they were: its run with values, the result dropped. -/
theorem frame_ki : Cert.frame_KernelIdeal := fun m ρ _ =>
  (θ_run Cert.KernelIdeal.defs _ _).mono (fun _ h c => (h c).2) (Cert.KernelIdeal.Body.value_run m ρ)

/-- The reference runs and leaves its arguments as they were: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the logits of those arguments. -/
theorem algebraic : Cert.algebraic_KernelIdeal_ReferenceIdeal := by
  intro m ρ m' ρ' _ hagree
  refine ⟨fun c => Cert.KernelIdeal.Body.G m c, Cert.KernelIdeal.Body.value_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.ref_is_logits,
    (hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
